-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x16 .f32) (main_arg1 : IVec S2x3200000 32) (main_arg2 : FVec F S16x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x16 : Shape := ⟨2, ![100000, 16]⟩
abbrev S2x3200000 : Shape := ⟨2, ![2, 3200000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S20000x16 : Shape := ⟨2, ![20000, 16]⟩
abbrev S20000x64 : Shape := ⟨2, ![20000, 64]⟩
abbrev S3300000x64 : Shape := ⟨2, ![3300000, 64]⟩
abbrev S1x64 : Shape := ⟨2, ![1, 64]⟩
abbrev S1x1 : Shape := ⟨2, ![1, 1]⟩
abbrev S100000x1 : Shape := ⟨2, ![100000, 1]⟩
abbrev S20000x1 : Shape := ⟨2, ![20000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x64, .f32⟩
  | .hbm, ⟨76, _⟩ => ⟨S3300000x1, .f32⟩
  | .hbm, ⟨77, _⟩ => ⟨S3300000x64, .f32⟩
  | .hbm, ⟨78, _⟩ => ⟨S3300000x64, .f32⟩
  | .hbm, ⟨79, _⟩ => ⟨S_, .f32⟩
  | .hbm, ⟨80, _⟩ => ⟨S100000x64, .f32⟩
  | .hbm, ⟨81, _⟩ => ⟨S3300000x1, .i32⟩
  | .hbm, ⟨82, _⟩ => ⟨S100000x64, .f32⟩
  | .hbm, ⟨83, _⟩ => ⟨S1x64, .f32⟩
  | .hbm, ⟨84, _⟩ => ⟨S1x1, .f32⟩
  | .hbm, ⟨85, _⟩ => ⟨S100000x1, .f32⟩
  | .local _ .vmem, ⟨0, _⟩ => ⟨S20000x16, .f32⟩
  | .local _ .vmem, ⟨1, _⟩ => ⟨S20000x16, .f32⟩
  | .local _ .vmem, ⟨2, _⟩ => ⟨S16x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S64x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S20000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S20000x1, .f32⟩
  | .local _ .vmem, ⟨17, _⟩ => ⟨S20000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S20000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S20000x16_S20000x16_0_0 : ∀ a, (![0, 0] : Fin 2 → Nat) a + S20000x16.size a ≤ S20000x16.size a
  h_S20000x16 : 0 < S20000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S20000x64_S20000x64_0_0 : ∀ a, (![0, 0] : Fin 2 → Nat) a + S20000x64.size a ≤ S20000x64.size a
  h_S20000x64 : 0 < S20000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S20000x16_S16x64_S20000x64_1_0_0_1_n_n_wf : DotDims.WF S20000x16 S16x64 S20000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S20000x64_S64x64_S20000x64_1_0_0_1_n_n_wf : DotDims.WF S20000x64 S64x64 S20000x64 [1] [0] [0] [1] [] []
  dot_S20000x64_S64x1_S20000x1_1_0_0_1_n_n_wf : DotDims.WF S20000x64 S64x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x16.size a ≤ S100000x16.size a
  hwx0_0 : ∀ i : grid0.Coords, EltTy.bits .f32 = 32 ∨ (Rect.block (s := S100000x16) S20000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S20000x1.size a ≤ S100000x1.size a
  hwx2_4 : ∀ i : grid2.Coords, EltTy.bits .f32 = 32 ∨ (Rect.block (s := S100000x1) S20000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S20000x16_S16x64_S20000x64_1_0_0_1_n_n : DotDims S20000x16 S16x64 S20000x64 where
  lhsContracting := [1]
  rhsContracting := [0]
  lhsNonContracting := [0]
  rhsNonContracting := [1]
  lhsBatch := []
  rhsBatch := []
  wf := dot_S20000x16_S16x64_S20000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf

abbrev win0_0 : Pipeline.Window sig grid0 :=
  Pipeline.Window.ofSpec (Memref.whole main_arg0) S20000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S20000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x64, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000, .f32⟩
  | .hbm, ⟨81, _⟩ => ⟨S_, .i32⟩
  | .hbm, ⟨82, _⟩ => ⟨S3300000, .i32⟩
  | .hbm, ⟨83, _⟩ => ⟨S3300000, .i1⟩
  | .hbm, ⟨84, _⟩ => ⟨S_, .i32⟩
  | .hbm, ⟨85, _⟩ => ⟨S3300000, .i32⟩
  | .hbm, ⟨86, _⟩ => ⟨S3300000, .i32⟩
  | .hbm, ⟨87, _⟩ => ⟨S3300000, .i32⟩
  | .hbm, ⟨88, _⟩ => ⟨S3300000x1, .i32⟩
  | .hbm, ⟨89, _⟩ => ⟨S3300000, .f32⟩
  | .hbm, ⟨90, _⟩ => ⟨S3300000, .f32⟩
  | .hbm, ⟨91, _⟩ => ⟨S_, .i32⟩
  | .hbm, ⟨92, _⟩ => ⟨S3300000, .i32⟩
  | .hbm, ⟨93, _⟩ => ⟨S3300000, .i1⟩
  | .hbm, ⟨94, _⟩ => ⟨S_, .i32⟩
  | .hbm, ⟨95, _⟩ => ⟨S3300000, .i32⟩
  | .hbm, ⟨96, _⟩ => ⟨S3300000, .i32⟩
  | .hbm, ⟨97, _⟩ => ⟨S3300000, .i32⟩
  | .hbm, ⟨98, _⟩ => ⟨S3300000x1, .i32⟩
  | .hbm, ⟨99, _⟩ => ⟨S3300000x64, .f32⟩
  | .hbm, ⟨100, _⟩ => ⟨S3300000x1, .f32⟩
  | .hbm, ⟨101, _⟩ => ⟨S3300000x64, .f32⟩
  | .hbm, ⟨102, _⟩ => ⟨S3300000x64, .f32⟩
  | .hbm, ⟨103, _⟩ => ⟨S_, .f32⟩
  | .hbm, ⟨104, _⟩ => ⟨S100000x64, .f32⟩
  | .hbm, ⟨105, _⟩ => ⟨S3300000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | .hbm, ⟨113, _⟩ => ⟨S100000x1, .f32⟩
  | .hbm, ⟨114, _⟩ => ⟨S1x1, .f32⟩
  | .hbm, ⟨115, _⟩ => ⟨S100000x1, .f32⟩
  | .hbm, ⟨116, _⟩ => ⟨S100000x1, .f32⟩
  | .hbm, ⟨117, _⟩ => ⟨S100000x1, .f32⟩
  | .hbm, ⟨118, _⟩ => ⟨S100000x1, .f32⟩
  | .hbm, ⟨119, _⟩ => ⟨S_, .f32⟩
  | .hbm, ⟨120, _⟩ => ⟨S100000x1, .f32⟩
  | .hbm, ⟨121, _⟩ => ⟨S100000x1, .f32⟩
  | .hbm, ⟨122, _⟩ => ⟨S_, .f32⟩
  | .hbm, ⟨123, _⟩ => ⟨S100000x1, .f32⟩
  | .hbm, ⟨124, _⟩ => ⟨S100000x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S3300000x1_S3300000_n_0_0_1_wf : ScatterDims.WF S100000 S3300000x1 S3300000 [] [0] [0] 1
  dot_S100000x16_S16x64_S100000x64_1_0_0_1_n_n_wf : DotDims.WF S100000x16 S16x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's run with its result named.  The program is eight segments: three stretches of host
  operations, the first kernel call, a stretch, the second call, a stretch, the third call.  The contents of the
  device's buffers at each boundary are a fold through the program from the launch memory (`W0` … `W8`: a stretch applies
  its operations, a call replaces its result array by what its five write-backs leave).  Every weakly fair execution
  terminates, without a fault, in a state where every unscoped buffer holds the last boundary's contents `W8`: the
  result buffer in particular, and each argument, which the fold never touches, what it was launched with.
-/
import proofs.«105885_j16003048145307_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents of it, the arguments end as launched. -/
theorem run_boundary : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibLaneFolds.lean ====
/-
  Reductions along the lanes of an `[a, b]` array, read at a row, on the extended reals, generic in the extents:
  * `laneMax_apply` / `laneSum_apply`: a vector unit's maximum and sum along the lanes, at row `p`, are the fold of
    `max` from the starting value, and the sum, over the row's `b` entries;
  * `hostLaneMax_apply`: the host's one-operand reduction with a maximum body along the same axis is the same fold,
    started at the initial value's one element.
  A fold of `max` is taken in any order (it is commutative and associative), so neither side's traversal order matters.
-/
import Idealize.ShloMosaic.Lib.ValueIdx
import Idealize.ShloMosaic.Lib.Pipeline.Value
import Idealize.ShloMosaic.PureOps.Ideal.Laws

noncomputable section

namespace Cert.LaneFolds

open Idealize.ShloMosaic Idealize.ShloMosaic.ValueIdx
open scoped BigOperators

/-- The maximum along the lanes, at row `p`: the fold of `max` from the starting value over the row's entries. -/
theorem laneMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg (fun f : Fin b → EReal => (Finset.univ : Finset (Fin b)).fold max (Ideal.ofBits .f32 acc) f)
      (funext fun k => congrArg src (funext fun d => Fin.ext (by
        match d with
        | ⟨0, _⟩ => rfl
        | ⟨1, _⟩ => rfl))))

/-- The sum along the lanes, at row `p`: the sum of the row's entries. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's reduction with a maximum body along the lanes, at row `p`: the same fold, from the initial value. -/
theorem hostLaneMax_apply {a b : ℕ} {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (fun f : Fin b → EReal => (Finset.univ : Finset (Fin b)).fold max (init (Shape.Idx.first hu)) f)
      (funext fun k => congrArg x (funext fun d => Fin.ext (by
        match d with
        | ⟨0, _⟩ => rfl
        | ⟨1, _⟩ => rfl))))

end Cert.LaneFolds

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibGcnStages.lean ====
/-
  The dense stages of a two-layer graph convolution with a log-softmax head, read entry by entry on the extended reals,
  generic in the row count and the widths, each in the spelling of a vector unit's kernel body and in the host's spelling:
  * `dense`: a matrix product, entry `(p, q)` the sum over `k` of `x (p, k) · w (k, q)`;
  * `reluDense`: a bias added along the rows, floored at zero, then a matrix product;
  * `logSoftmaxRow`, `biasLogSoftmax`: a bias added along the rows, then along each row the entries minus the row's
    maximum minus the logarithm of the sum of the exponentials of those differences.
  The kernel spellings round operands to bfloat16 (the identity on the extended reals), take each product into a zero
  accumulator, keep the row's maximum and sum as a column and repeat them along the lanes; the host spellings use
  `dot_general`, two-step broadcasts of a bias, one-operand reductions, and take the maximum of the row's maximum with the
  reduction's own starting value `-∞` once more, which changes nothing.  No finiteness is needed: each pair of spellings is
  the same sums, maxima and differences of the same entries.
-/
import Idealize.ShloMosaic.Lib.ValueIdx
import Idealize.ShloMosaic.Lib.ValueLayout
import Idealize.ShloMosaic.Lib.Pipeline.Value
import Idealize.ShloMosaic.PureOps.Ideal.Laws
import proofs.«105885_j16003048145307_1_alg».proof.Proof.LibMlpRows
import proofs.«105885_j16003048145307_1_alg».proof.Proof.LibLaneFolds
import proofs.«105885_j16003048145307_1_alg».proof.Proof.LibColumns

noncomputable section

namespace Cert.LibGcn

open Idealize.ShloMosaic Idealize.ShloMosaic.ValueIdx
open scoped BigOperators

/-- An `[r, c]` array of extended reals. -/
abbrev Mat (r c : ℕ) : Type := (⟨2, ![r, c]⟩ : Shape).Idx → EReal
/-- An `[n]` array of extended reals. -/
abbrev Row (n : ℕ) : Type := (⟨1, ![n]⟩ : Shape).Idx → EReal

/-- The value of the binary32 zero word: the floor of a ReLU. -/
abbrev zeroWord : EReal := Ideal.ofBits .f32 0x00000000#32
/-- The value of the binary32 word of `-∞`: where a row maximum starts. -/
abbrev negInfWord : EReal := Ideal.ofBits .f32 0xFF800000#32

/-! ## The three stages as functions of whole arrays -/

/-- The matrix product `x · w`. -/
def dense {R I O : ℕ} (x : Mat R I) (w : Mat I O) : Mat R O :=
  fun i => ∑ k : Fin I, x (ix2 (i 0) k) * w (ix2 k (i 1))

theorem dense_ix2 {R I O : ℕ} (x : Mat R I) (w : Mat I O) (p : Fin R) (q : Fin O) :
    dense x w (ix2 p q) = ∑ k : Fin I, x (ix2 p k) * w (ix2 k q) := rfl

/-- `relu (a + b) · w`, the bias `b` given as one row `[1, H]`. -/
def reluDenseRow {R H O : ℕ} (a : Mat R H) (b : Mat 1 H) (w : Mat H O) : Mat R O :=
  fun i => ∑ k : Fin H, max (a (ix2 (i 0) k) + b (ix2 (0 : Fin 1) k)) zeroWord * w (ix2 k (i 1))

/-- `relu (a + b) · w`, the bias `b` a vector of `H` entries. -/
def reluDense {R H O : ℕ} (a : Mat R H) (b : Row H) (w : Mat H O) : Mat R O :=
  fun i => ∑ k : Fin H, max (a (ix2 (i 0) k) + b (ix1 k)) zeroWord * w (ix2 k (i 1))

theorem reluDense_ix2 {R H O : ℕ} (a : Mat R H) (b : Row H) (w : Mat H O) (p : Fin R) (q : Fin O) :
    reluDense a b w (ix2 p q) = ∑ k : Fin H, max (a (ix2 p k) + b (ix1 k)) zeroWord * w (ix2 k q) := rfl

/-- The log-softmax of one row: each entry minus the row's maximum (taken from `-∞`), minus the logarithm of the sum of the
    exponentials of those differences. -/
def logSoftmaxRow {C : ℕ} (row : Fin C → EReal) (q : Fin C) : EReal :=
  (row q - (Finset.univ : Finset (Fin C)).fold max negInfWord row)
    - Ideal.log (∑ k : Fin C, Ideal.exp (row k - (Finset.univ : Finset (Fin C)).fold max negInfWord row))

/-- The log-softmax along the rows of `a + b`, the bias `b` given as one row `[1, C]`. -/
def biasLogSoftmaxRow {R C : ℕ} (a : Mat R C) (b : Mat 1 C) : Mat R C :=
  fun i => logSoftmaxRow (fun k => a (ix2 (i 0) k) + b (ix2 (0 : Fin 1) k)) (i 1)

/-- The log-softmax along the rows of `a + b`, the bias `b` a vector of `C` entries. -/
def biasLogSoftmax {R C : ℕ} (a : Mat R C) (b : Row C) : Mat R C :=
  fun i => logSoftmaxRow (fun k => a (ix2 (i 0) k) + b (ix1 k)) (i 1)

/-- A bias laid out as one row by a cast of a vector is that vector, entry by entry. -/
theorem reluDenseRow_cast {R H O : ℕ} (a : Mat R H) (b : Row H) (w : Mat H O) (h : (⟨1, ![H]⟩ : Shape).ShapeCasts ⟨2, ![1, H]⟩) :
    reluDenseRow a (shapeCast ⟨2, ![1, H]⟩ b h) w = reluDense a b w := by
  funext i
  simp only [reluDenseRow, reluDense, shapeCast_a_1a_apply]

theorem biasLogSoftmaxRow_cast {R C : ℕ} (a : Mat R C) (b : Row C) (h : (⟨1, ![C]⟩ : Shape).ShapeCasts ⟨2, ![1, C]⟩) :
    biasLogSoftmaxRow a (shapeCast ⟨2, ![1, C]⟩ b h) = biasLogSoftmax a b := by
  funext i
  simp only [biasLogSoftmaxRow, biasLogSoftmax, shapeCast_a_1a_apply]

/-! ## The kernel spellings -/

theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl
theorem hostExp_apply {s : Shape} {φ : FTy} (v : FVec Ideal s φ) (i : s.Idx) : Host.exp v i = Ideal.exp (v i) := rfl
theorem hostLog_apply {s : Shape} {φ : FTy} (v : FVec Ideal s φ) (i : s.Idx) : Host.log v i = Ideal.log (v i) := rfl

/-- A kernel's matrix product: operands rounded to bfloat16, the product into a zero accumulator, the result rounded. -/
theorem kernel_dense_apply {R I O : ℕ} (d : DotDims ⟨2, ![R, I]⟩ ⟨2, ![I, O]⟩ ⟨2, ![R, O]⟩) (hd : d = DotDims.plain R I O)
    (x : FVec Ideal ⟨2, ![R, I]⟩ .f32) (w : FVec Ideal ⟨2, ![I, O]⟩ .f32) (ht : FTy.bf16.bits < FTy.f32.bits) (p : Fin R) (q : Fin O) :
    (truncf .bf16 (matmul d none (truncf .bf16 x ht) (truncf .bf16 w ht) (constant ⟨2, ![R, O]⟩ .f32 0x00000000#32)) ht
        : FVec Ideal ⟨2, ![R, O]⟩ .bf16) (ix2 p q)
      = dense x w (ix2 p q) := by
  subst hd
  simp only [dense_ix2, matmul, truncf_apply, LibMlp.matmul_zero_plain]

/-- A kernel's bias, ReLU and matrix product: the bias one row repeated down the rows, the floor a zero splat. -/
theorem kernel_reluDense_apply {R H O : ℕ} (d : DotDims ⟨2, ![R, H]⟩ ⟨2, ![H, O]⟩ ⟨2, ![R, O]⟩) (hd : d = DotDims.plain R H O)
    (a : FVec Ideal ⟨2, ![R, H]⟩ .f32) (b : FVec Ideal ⟨2, ![1, H]⟩ .f32) (w : FVec Ideal ⟨2, ![H, O]⟩ .f32)
    (ha : (⟨2, ![R, H]⟩ : Shape).ShapeCasts ⟨2, ![R, H]⟩) (hb : (⟨2, ![1, H]⟩ : Shape).ShapeCasts ⟨2, ![1, H]⟩)
    (hB : (⟨2, ![1, H]⟩ : Shape).Broadcasts ⟨2, ![R, H]⟩) (ht : FTy.bf16.bits < FTy.f32.bits) (p : Fin R) (q : Fin O) :
    (truncf .bf16 (matmul d none
        (truncf .bf16 (maximumf (addf (shapeCast ⟨2, ![R, H]⟩ a ha) (broadcastTo ⟨2, ![R, H]⟩ (shapeCast ⟨2, ![1, H]⟩ b hb) hB))
          (broadcast ⟨2, ![R, H]⟩ (Scalar.ofBits .f32 0x00000000#32))) ht)
        (truncf .bf16 w ht) (constant ⟨2, ![R, O]⟩ .f32 0x00000000#32)) ht : FVec Ideal ⟨2, ![R, O]⟩ .bf16) (ix2 p q)
      = reluDenseRow a b w (ix2 p q) := by
  subst hd
  simp only [reluDenseRow, matmul, truncf_apply, LibMlp.matmul_zero_plain, maximumf_apply, addf_apply, shapeCast_self,
    broadcastTo_1b_ab_apply, broadcast_apply]
  rfl

/-- A kernel's bias and log-softmax along the lanes: the row's maximum and the sum of exponentials each kept as a column
    and repeated along the lanes. -/
theorem kernel_biasLogSoftmax_apply {R C : ℕ} (a : FVec Ideal ⟨2, ![R, C]⟩ .f32) (b : FVec Ideal ⟨2, ![1, C]⟩ .f32)
    (ha : (⟨2, ![R, C]⟩ : Shape).ShapeCasts ⟨2, ![R, C]⟩) (hb : (⟨2, ![1, C]⟩ : Shape).ShapeCasts ⟨2, ![1, C]⟩)
    (hB : (⟨2, ![1, C]⟩ : Shape).Broadcasts ⟨2, ![R, C]⟩)
    (hr : (⟨2, ![R, C]⟩ : Shape).Reduces [1] ⟨1, ![R]⟩) (hφ : FKind.Formats .f32)
    (hmax : (0xFF800000#32 : BitVec 32) = FKind.maximumf.neutral .f32 hφ) (hadd : (0x00000000#32 : BitVec 32) = FKind.add.neutral .f32 hφ)
    (hc : (⟨1, ![R]⟩ : Shape).ShapeCasts ⟨2, ![R, 1]⟩) (hC : (⟨2, ![R, 1]⟩ : Shape).Broadcasts ⟨2, ![R, C]⟩)
    (p : Fin R) (q : Fin C) :
    subf (subf (addf (shapeCast ⟨2, ![R, C]⟩ a ha) (broadcastTo ⟨2, ![R, C]⟩ (shapeCast ⟨2, ![1, C]⟩ b hb) hB))
          (broadcastTo ⟨2, ![R, C]⟩ (shapeCast ⟨2, ![R, 1]⟩
            (multiReduction .maximumf [1] ⟨1, ![R]⟩ (addf (shapeCast ⟨2, ![R, C]⟩ a ha) (broadcastTo ⟨2, ![R, C]⟩ (shapeCast ⟨2, ![1, C]⟩ b hb) hB))
              0xFF800000#32 hr hφ hmax) hc) hC))
      (broadcastTo ⟨2, ![R, C]⟩ (log (shapeCast ⟨2, ![R, 1]⟩
        (multiReduction .add [1] ⟨1, ![R]⟩
          (exp (subf (addf (shapeCast ⟨2, ![R, C]⟩ a ha) (broadcastTo ⟨2, ![R, C]⟩ (shapeCast ⟨2, ![1, C]⟩ b hb) hB))
            (broadcastTo ⟨2, ![R, C]⟩ (shapeCast ⟨2, ![R, 1]⟩
              (multiReduction .maximumf [1] ⟨1, ![R]⟩ (addf (shapeCast ⟨2, ![R, C]⟩ a ha) (broadcastTo ⟨2, ![R, C]⟩ (shapeCast ⟨2, ![1, C]⟩ b hb) hB))
                0xFF800000#32 hr hφ hmax) hc) hC)))
          0x00000000#32 hr hφ hadd) hc)) hC) (ix2 p q)
      = biasLogSoftmaxRow a b (ix2 p q) := by
  have hX : ∀ (p' : Fin R) (k : Fin C),
      addf (shapeCast ⟨2, ![R, C]⟩ a ha) (broadcastTo ⟨2, ![R, C]⟩ (shapeCast ⟨2, ![1, C]⟩ b hb) hB) (ix2 p' k)
        = a (ix2 p' k) + b (ix2 (0 : Fin 1) k) := fun p' k => by
    rw [addf_apply, shapeCast_self, shapeCast_self, broadcastTo_1b_ab_apply]
  generalize addf (shapeCast ⟨2, ![R, C]⟩ a ha) (broadcastTo ⟨2, ![R, C]⟩ (shapeCast ⟨2, ![1, C]⟩ b hb) hB) = X at hX ⊢
  have hM : ∀ (p' : Fin R) (q' : Fin C),
      broadcastTo ⟨2, ![R, C]⟩ (shapeCast ⟨2, ![R, 1]⟩ (multiReduction .maximumf [1] ⟨1, ![R]⟩ X 0xFF800000#32 hr hφ hmax) hc) hC (ix2 p' q')
        = (Finset.univ : Finset (Fin C)).fold max negInfWord (fun k => X (ix2 p' k)) := fun p' q' => by
    rw [Columns.broadcastTo_a1_ab_apply, Columns.shapeCast_a_a1_apply]
    exact LaneFolds.laneMax_apply X _ hr hφ hmax p'
  rw [subf_apply, subf_apply, hM, Columns.broadcastTo_a1_ab_apply, log_apply, Columns.shapeCast_a_a1_apply,
    LaneFolds.laneSum_apply _ _ hr hφ hadd p]
  unfold biasLogSoftmaxRow logSoftmaxRow
  simp only [exp_apply, subf_apply, hM, hX]
  rfl

/-! ## The host spellings -/

/-- A vector broadcast to one row and then down the rows reads, at `(p, k)`, the vector's entry `k`. -/
theorem hostBias_apply {R H : ℕ} (b : (⟨1, ![H]⟩ : Shape).Idx → EReal)
    (hb : (⟨1, ![H]⟩ : Shape).BroadcastsInDim ⟨2, ![1, H]⟩ ![1]) (hB : (⟨2, ![1, H]⟩ : Shape).BroadcastsInDim ⟨2, ![R, H]⟩ ![0, 1])
    (p : Fin R) (k : Fin H) :
    broadcastInDim ⟨2, ![R, H]⟩ ![0, 1] hB (broadcastInDim ⟨2, ![1, H]⟩ ![1] hb b) (ix2 p k) = b (ix1 k) := by
  rw [broadcastInDim_apply ![0, 1] hB _ (ix2 p k) (ix2 (0 : Fin 1) k) (fun a => by
    match a with
    | ⟨0, _⟩ => rfl
    | ⟨1, _⟩ => show k.val = if H = 1 then 0 else k.val; split <;> [(have := k.isLt; omega); rfl])]
  exact broadcastInDim_apply ![1] hb _ (ix2 (0 : Fin 1) k) (ix1 k) (fun a => by
    match a with
    | ⟨0, _⟩ => show k.val = if H = 1 then 0 else k.val; split <;> [(have := k.isLt; omega); rfl])

/-- A scalar broadcast to any shape reads the scalar everywhere. -/
theorem hostSplat_apply {t : Shape} (v : (⟨0, ![]⟩ : Shape).Idx → EReal) (hz : (⟨0, ![]⟩ : Shape).BroadcastsInDim t ![]) (j : t.Idx) :
    broadcastInDim t ![] hz v j = v ix0 :=
  broadcastInDim_apply ![] hz v j ix0 (fun a => a.elim0)

/-- A vector of `R` entries broadcast to a column and then along `C` lanes reads, at `(p, q)`, the vector's entry `p`. -/
theorem hostColumn_apply {R C : ℕ} (v : (⟨1, ![R]⟩ : Shape).Idx → EReal)
    (hc : (⟨1, ![R]⟩ : Shape).BroadcastsInDim ⟨2, ![R, 1]⟩ ![0]) (hC : (⟨2, ![R, 1]⟩ : Shape).BroadcastsInDim ⟨2, ![R, C]⟩ ![0, 1])
    (f : EReal → EReal) (p : Fin R) (q : Fin C) :
    broadcastInDim ⟨2, ![R, C]⟩ ![0, 1] hC (fun i => f (broadcastInDim ⟨2, ![R, 1]⟩ ![0] hc v i)) (ix2 p q) = f (v (ix1 p)) := by
  rw [broadcastInDim_apply ![0, 1] hC _ (ix2 p q) (ix2 p (0 : Fin 1)) (fun a => by
    match a with
    | ⟨0, _⟩ => show p.val = if R = 1 then 0 else p.val; split <;> [(have := p.isLt; omega); rfl]
    | ⟨1, _⟩ => rfl)]
  exact congrArg f (broadcastInDim_apply ![0] hc _ (ix2 p (0 : Fin 1)) (ix1 p) (fun a => by
    match a with
    | ⟨0, _⟩ => show p.val = if R = 1 then 0 else p.val; split <;> [(have := p.isLt; omega); rfl]))

/-- The host's sum along the lanes, at row `p`: the initial value plus the sum of the row's entries. -/
theorem hostLaneSum_apply {a b : ℕ} {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (Ideal.hostReduceAdd_single h' h x (init (Shape.Idx.first hu)) (ix1 p)).trans
    (congrArg (fun s : EReal => init (Shape.Idx.first hu) + s)
      (Finset.sum_congr rfl fun k _ => congrArg x (funext fun d => Fin.ext (by
        match d with
        | ⟨0, _⟩ => rfl
        | ⟨1, _⟩ => rfl))))

/-- The host's matrix product. -/
theorem host_dense_apply {R I O : ℕ} (d : DotDims ⟨2, ![R, I]⟩ ⟨2, ![I, O]⟩ ⟨2, ![R, O]⟩) (hd : d = DotDims.plain R I O)
    (x : FVec Ideal ⟨2, ![R, I]⟩ .f32) (w : FVec Ideal ⟨2, ![I, O]⟩ .f32) (p : Fin R) (q : Fin O) :
    Host.dotGeneral d none x w (ix2 p q) = dense x w (ix2 p q) := by
  subst hd
  simp only [dense_ix2, Host.dotGeneral, LibMlp.dotGeneral_plain]

/-- The host's bias, ReLU and matrix product: the bias broadcast in two steps, the floor a broadcast zero. -/
theorem host_reluDense_apply {R H O : ℕ} (d : DotDims ⟨2, ![R, H]⟩ ⟨2, ![H, O]⟩ ⟨2, ![R, O]⟩) (hd : d = DotDims.plain R H O)
    (a : FVec Ideal ⟨2, ![R, H]⟩ .f32) (b : FVec Ideal ⟨1, ![H]⟩ .f32) (w : FVec Ideal ⟨2, ![H, O]⟩ .f32)
    (hb : (⟨1, ![H]⟩ : Shape).BroadcastsInDim ⟨2, ![1, H]⟩ ![1]) (hB : (⟨2, ![1, H]⟩ : Shape).BroadcastsInDim ⟨2, ![R, H]⟩ ![0, 1])
    (hz : (⟨0, ![]⟩ : Shape).BroadcastsInDim ⟨2, ![R, H]⟩ ![]) (p : Fin R) (q : Fin O) :
    Host.dotGeneral d none
        (maximumf (addf a (broadcastInDim ⟨2, ![R, H]⟩ ![0, 1] hB (broadcastInDim ⟨2, ![1, H]⟩ ![1] hb b)))
          (broadcastInDim ⟨2, ![R, H]⟩ ![] hz (constant (F := Ideal) ⟨0, ![]⟩ .f32 0x00000000#32))) w (ix2 p q)
      = reluDense a b w (ix2 p q) := by
  subst hd
  have bias : ∀ (r : Fin R) (k : Fin H),
      broadcastInDim ⟨2, ![R, H]⟩ ![0, 1] hB (broadcastInDim ⟨2, ![1, H]⟩ ![1] hb b) (ix2 r k) = b (ix1 k) :=
    fun r k => hostBias_apply b hb hB r k
  have zero : ∀ (r : Fin R) (k : Fin H),
      broadcastInDim ⟨2, ![R, H]⟩ ![] hz (constant (F := Ideal) ⟨0, ![]⟩ .f32 0x00000000#32) (ix2 r k) = zeroWord :=
    fun r k => hostSplat_apply _ hz _
  simp only [reluDense_ix2, Host.dotGeneral, LibMlp.dotGeneral_plain, maximumf_apply, addf_apply, bias, zero]

/-- Taking the maximum with `-∞` once more changes no row maximum that was itself taken from `-∞`. -/
theorem max_fold_self {C : ℕ} (z : EReal) (row : Fin C → EReal) :
    max z ((Finset.univ : Finset (Fin C)).fold max z row) = (Finset.univ : Finset (Fin C)).fold max z row :=
  max_eq_right ((Finset.le_fold_max (s := Finset.univ) (f := row) (b := z) (c := z)).2 (Or.inl le_rfl))

/-- The host's log-softmax along the lanes of `X`. -/
theorem host_logSoftmax_apply {R C : ℕ} (X : FVec Ideal ⟨2, ![R, C]⟩ .f32)
    (hr' : (⟨2, ![R, C]⟩ : Shape).ReducesTo [1] ⟨1, ![R]⟩) (hr : (⟨2, ![R, C]⟩ : Shape).Reduces [1] ⟨1, ![R]⟩)
    (hu : 0 < (⟨0, ![]⟩ : Shape).numel) (hz : (⟨0, ![]⟩ : Shape).BroadcastsInDim ⟨1, ![R]⟩ ![])
    (hc : (⟨1, ![R]⟩ : Shape).BroadcastsInDim ⟨2, ![R, 1]⟩ ![0]) (hC : (⟨2, ![R, 1]⟩ : Shape).BroadcastsInDim ⟨2, ![R, C]⟩ ![0, 1])
    (p : Fin R) (q : Fin C) :
    subf (subf X (broadcastInDim ⟨2, ![R, C]⟩ ![0, 1] hC (broadcastInDim ⟨2, ![R, 1]⟩ ![0] hc
            (maximumf (broadcastInDim ⟨1, ![R]⟩ ![] hz (constant (F := Ideal) ⟨0, ![]⟩ .f32 0xFF800000#32))
              (Host.reduce (FloatOps.maximumf (F := Ideal) (φ := .f32)) X (constant (F := Ideal) ⟨0, ![]⟩ .f32 0xFF800000#32) hr' hu)))))
      (broadcastInDim ⟨2, ![R, C]⟩ ![0, 1] hC (Host.log (broadcastInDim ⟨2, ![R, 1]⟩ ![0] hc
        (Host.reduceAdd (Host.exp (subf X (broadcastInDim ⟨2, ![R, C]⟩ ![0, 1] hC (broadcastInDim ⟨2, ![R, 1]⟩ ![0] hc
            (maximumf (broadcastInDim ⟨1, ![R]⟩ ![] hz (constant (F := Ideal) ⟨0, ![]⟩ .f32 0xFF800000#32))
              (Host.reduce (FloatOps.maximumf (F := Ideal) (φ := .f32)) X (constant (F := Ideal) ⟨0, ![]⟩ .f32 0xFF800000#32) hr' hu))))))
          (constant (F := Ideal) ⟨0, ![]⟩ .f32 0x00000000#32) hr' hu)))) (ix2 p q)
      = logSoftmaxRow (fun k => X (ix2 p k)) q := by
  have hM : ∀ (p' : Fin R) (q' : Fin C), broadcastInDim ⟨2, ![R, C]⟩ ![0, 1] hC (broadcastInDim ⟨2, ![R, 1]⟩ ![0] hc
        (maximumf (broadcastInDim ⟨1, ![R]⟩ ![] hz (constant (F := Ideal) ⟨0, ![]⟩ .f32 0xFF800000#32))
          (Host.reduce (FloatOps.maximumf (F := Ideal) (φ := .f32)) X (constant (F := Ideal) ⟨0, ![]⟩ .f32 0xFF800000#32) hr' hu))) (ix2 p' q')
      = (Finset.univ : Finset (Fin C)).fold max negInfWord (fun k => X (ix2 p' k)) := fun p' q' => by
    refine (hostColumn_apply _ hc hC id p' q').trans ?_
    show max _ _ = _
    rw [hostSplat_apply, LaneFolds.hostLaneMax_apply X _ hr' hr hu p']
    exact max_fold_self _ _
  have hS : ∀ (p' : Fin R), Host.reduceAdd (Host.exp (subf X (broadcastInDim ⟨2, ![R, C]⟩ ![0, 1] hC (broadcastInDim ⟨2, ![R, 1]⟩ ![0] hc
            (maximumf (broadcastInDim ⟨1, ![R]⟩ ![] hz (constant (F := Ideal) ⟨0, ![]⟩ .f32 0xFF800000#32))
              (Host.reduce (FloatOps.maximumf (F := Ideal) (φ := .f32)) X (constant (F := Ideal) ⟨0, ![]⟩ .f32 0xFF800000#32) hr' hu))))))
          (constant (F := Ideal) ⟨0, ![]⟩ .f32 0x00000000#32) hr' hu (ix1 p')
      = ∑ k : Fin C, Ideal.exp (X (ix2 p' k) - (Finset.univ : Finset (Fin C)).fold max negInfWord (fun k => X (ix2 p' k))) := fun p' => by
    rw [hostLaneSum_apply _ _ hr' hr hu p']
    simp only [hostExp_apply, subf_apply, hM, constant_apply, Ideal.ofBits_zero_f32, zero_add]
  rw [subf_apply, subf_apply, hM]
  refine congrArg (fun s : EReal => X (ix2 p q) - (Finset.univ : Finset (Fin C)).fold max negInfWord (fun k => X (ix2 p k)) - s) ?_
  exact (hostColumn_apply _ hc hC Ideal.log p q).trans (congrArg Ideal.log (hS p))

/-- The host's bias and log-softmax: the bias broadcast in two steps. -/
theorem host_biasLogSoftmax_apply {R C : ℕ} (a : FVec Ideal ⟨2, ![R, C]⟩ .f32) (b : FVec Ideal ⟨1, ![C]⟩ .f32)
    (hb : (⟨1, ![C]⟩ : Shape).BroadcastsInDim ⟨2, ![1, C]⟩ ![1]) (hB : (⟨2, ![1, C]⟩ : Shape).BroadcastsInDim ⟨2, ![R, C]⟩ ![0, 1])
    (p : Fin R) (q : Fin C) :
    logSoftmaxRow (fun k => addf a (broadcastInDim ⟨2, ![R, C]⟩ ![0, 1] hB (broadcastInDim ⟨2, ![1, C]⟩ ![1] hb b)) (ix2 p k)) q
      = biasLogSoftmax a b (ix2 p q) := by
  have bias : ∀ (r : Fin R) (k : Fin C),
      broadcastInDim ⟨2, ![R, C]⟩ ![0, 1] hB (broadcastInDim ⟨2, ![1, C]⟩ ![1] hb b) (ix2 r k) = b (ix1 k) :=
    fun r k => hostBias_apply b hb hB r k
  simp only [biasLogSoftmax, addf_apply, bias]
  rfl

end Cert.LibGcn

end
-- ==== Proof.LibLogisticSpelled.lean ====
/-
  The sigmoid written out with the binary32 word for one.

  A host program that expands the sigmoid writes `1 / (1 + e^(−t))` with its two ones as the binary32 constant
  `0x3F800000`; a vector unit's own sigmoid operation is, on the extended reals, by definition that quotient with the
  number one.  The word denotes the number one (`one_bits`), so the two agree at every extended real `t`, the infinities
  included (`logistic_spelled`; `logistic_spelled_host` is the same with the host's operation names).  No finiteness of
  `t` is needed.
-/
import Idealize.ShloMosaic.PureOps.Ideal

noncomputable section

namespace Cert.LibLogistic

open Idealize.ShloMosaic

/-- The binary32 word `0x3F800000` is the number one. -/
theorem one_bits : Ideal.ofBits .f32 0x3F800000#32 = (1 : EReal) := by
  simp [Ideal.ofBits, Ideal.ieee, -EReal.coe_mul]; norm_num

/-- The sigmoid spelled out with that word for its two ones — one over one plus the exponential of the negated
    argument — is the sigmoid. -/
theorem logistic_spelled (t : EReal) :
    Ideal.div (Ideal.ofBits .f32 0x3F800000#32) (Ideal.ofBits .f32 0x3F800000#32 + Ideal.exp (-t)) = Ideal.logistic t := by
  rw [one_bits]; rfl

/-- The same with the host's names for the quotient, the sum, the exponential and the negation. -/
theorem logistic_spelled_host (t : Ideal .f32) :
    FloatOps.hostDivf (Ideal.ofBits .f32 0x3F800000#32 : Ideal .f32)
        (FloatOps.addf (Ideal.ofBits .f32 0x3F800000#32 : Ideal .f32) (FloatOps.hostUnary .exp (FloatOps.hostNegf t)))
      = Ideal.logistic t :=
  logistic_spelled t

end Cert.LibLogistic

end
-- ==== Proof.LibGcnHead.lean ====
/-
  The dense stages of a graph convolution whose vector-unit kernels keep their matrix products in binary32, read entry
  by entry on the extended reals, generic in the row count and the widths:
  * the plain product `dense` and the layer `relu (a + b) · w` (`reluDenseRow`, `reluDense`) in the kernel spelling
    WITHOUT a rounding of the product: operands rounded to bfloat16 (the identity on the extended reals), the product
    taken into a zero accumulator, the bias one row repeated down the rows, the floor a zero splat;
  * the head `sigmoid (relu (a + b) · w + c)` (`headRow` with the two biases given as one-row arrays, `head` with them
    given as vectors): in the kernel spelling the vector unit's own sigmoid of the product plus a repeated one-row
    bias; in the host spelling a `dot_general`, each bias broadcast in two steps, and the sigmoid written out as
    `1 / (1 + exp (−t))` with the binary32 word of one — the same function of `t` at every extended real;
  * every entry of each stage depends on ONE row of the left operand, so a stage of a block of rows is that block of
    the stage (`dense_rows`, `reluDenseRow_rows`, `headRow_rows`).
  Each pair of spellings is the same sums of the same products, term by term: no finiteness is used.
-/
import Idealize.ShloMosaic.Lib.ValueIdx
import Idealize.ShloMosaic.Lib.ValueLayout
import Idealize.ShloMosaic.Lib.Pipeline.Value
import Idealize.ShloMosaic.PureOps.Ideal.Laws
import proofs.«105885_j16003048145307_1_alg».proof.Proof.LibMlpRows
import proofs.«105885_j16003048145307_1_alg».proof.Proof.LibGcnStages
import proofs.«105885_j16003048145307_1_alg».proof.Proof.LibLogisticSpelled

noncomputable section

namespace Cert.LibGcnHead

open Idealize.ShloMosaic Idealize.ShloMosaic.ValueIdx Cert.LibGcn
open scoped BigOperators

/-! ## The head as a function of whole arrays -/

/-- `sigmoid (relu (a + b) · w + c)`, the biases `b` and `c` each given as one row. -/
def headRow {R H O : ℕ} (a : Mat R H) (b : Mat 1 H) (w : Mat H O) (c : Mat 1 O) : Mat R O :=
  fun i => Ideal.logistic
    ((∑ k : Fin H, max (a (ix2 (i 0) k) + b (ix2 (0 : Fin 1) k)) zeroWord * w (ix2 k (i 1))) + c (ix2 (0 : Fin 1) (i 1)))

/-- `sigmoid (relu (a + b) · w + c)`, the biases vectors of `H` and of `O` entries. -/
def head {R H O : ℕ} (a : Mat R H) (b : Row H) (w : Mat H O) (c : Row O) : Mat R O :=
  fun i => Ideal.logistic
    ((∑ k : Fin H, max (a (ix2 (i 0) k) + b (ix1 k)) zeroWord * w (ix2 k (i 1))) + c (ix1 (i 1)))

theorem reluDenseRow_ix2 {R H O : ℕ} (a : Mat R H) (b : Mat 1 H) (w : Mat H O) (p : Fin R) (q : Fin O) :
    reluDenseRow a b w (ix2 p q) = ∑ k : Fin H, max (a (ix2 p k) + b (ix2 (0 : Fin 1) k)) zeroWord * w (ix2 k q) := rfl

theorem headRow_ix2 {R H O : ℕ} (a : Mat R H) (b : Mat 1 H) (w : Mat H O) (c : Mat 1 O) (p : Fin R) (q : Fin O) :
    headRow a b w c (ix2 p q)
      = Ideal.logistic ((∑ k : Fin H, max (a (ix2 p k) + b (ix2 (0 : Fin 1) k)) zeroWord * w (ix2 k q)) + c (ix2 (0 : Fin 1) q)) := rfl

theorem head_ix2 {R H O : ℕ} (a : Mat R H) (b : Row H) (w : Mat H O) (c : Row O) (p : Fin R) (q : Fin O) :
    head a b w c (ix2 p q)
      = Ideal.logistic ((∑ k : Fin H, max (a (ix2 p k) + b (ix1 k)) zeroWord * w (ix2 k q)) + c (ix1 q)) := rfl

/-- Biases laid out as one row by a cast of a vector are those vectors, entry by entry. -/
theorem headRow_cast {R H O : ℕ} (a : Mat R H) (b : Row H) (w : Mat H O) (c : Row O)
    (hb : (⟨1, ![H]⟩ : Shape).ShapeCasts ⟨2, ![1, H]⟩) (hc : (⟨1, ![O]⟩ : Shape).ShapeCasts ⟨2, ![1, O]⟩) :
    headRow a (shapeCast ⟨2, ![1, H]⟩ b hb) w (shapeCast ⟨2, ![1, O]⟩ c hc) = head a b w c := by
  funext i
  obtain ⟨p, q, rfl⟩ : ∃ (p : Fin R) (q : Fin O), i = ix2 p q := ⟨i 0, i 1, eq_ix2 i⟩
  rw [headRow_ix2, head_ix2]
  simp only [shapeCast_a_1a_apply]

/-! ## A stage of a block of rows is that block of the stage -/

/-- If row `p` of the block `xb` is row `r` of the array `x`, entry `(p, q)` of the block's product is entry `(r, q)`
    of the array's. -/
theorem dense_rows {R R' I O : ℕ} (x : Mat R I) (xb : Mat R' I) (w : Mat I O) (p : Fin R') (r : Fin R) (q : Fin O)
    (hx : ∀ k, xb (ix2 p k) = x (ix2 r k)) : dense xb w (ix2 p q) = dense x w (ix2 r q) := by
  rw [dense_ix2, dense_ix2]; simp only [hx]

theorem reluDenseRow_rows {R R' H O : ℕ} (a : Mat R H) (ab : Mat R' H) (b : Mat 1 H) (w : Mat H O)
    (p : Fin R') (r : Fin R) (q : Fin O) (ha : ∀ k, ab (ix2 p k) = a (ix2 r k)) :
    reluDenseRow ab b w (ix2 p q) = reluDenseRow a b w (ix2 r q) := by
  rw [reluDenseRow_ix2, reluDenseRow_ix2]; simp only [ha]

theorem headRow_rows {R R' H O : ℕ} (a : Mat R H) (ab : Mat R' H) (b : Mat 1 H) (w : Mat H O) (c : Mat 1 O)
    (p : Fin R') (r : Fin R) (q : Fin O) (ha : ∀ k, ab (ix2 p k) = a (ix2 r k)) :
    headRow ab b w c (ix2 p q) = headRow a b w c (ix2 r q) := by
  rw [headRow_ix2, headRow_ix2]; simp only [ha]

/-! ## The kernel spellings, the product kept in binary32 -/

theorem logistic_apply {s : Shape} {φ : FTy} (v : FVec Ideal s φ) (i : s.Idx) : logistic v i = Ideal.logistic (v i) := rfl
theorem hostNegf_apply {s : Shape} {φ : FTy} (v : FVec Ideal s φ) (i : s.Idx) : Host.negf v i = FloatOps.hostNegf (v i) := rfl
theorem hostDivf_apply {s : Shape} {φ : FTy} (u v : FVec Ideal s φ) (i : s.Idx) : Host.divf u v i = FloatOps.hostDivf (u i) (v i) := rfl

/-- A kernel's matrix product: operands rounded to bfloat16, the product into a zero accumulator. -/
theorem kernel_dense_f32_apply {R I O : ℕ} (d : DotDims ⟨2, ![R, I]⟩ ⟨2, ![I, O]⟩ ⟨2, ![R, O]⟩) (hd : d = DotDims.plain R I O)
    (x : FVec Ideal ⟨2, ![R, I]⟩ .f32) (w : FVec Ideal ⟨2, ![I, O]⟩ .f32) (ht : FTy.bf16.bits < FTy.f32.bits) (p : Fin R) (q : Fin O) :
    matmul d none (truncf .bf16 x ht) (truncf .bf16 w ht) (constant ⟨2, ![R, O]⟩ .f32 0x00000000#32) (ix2 p q)
      = dense x w (ix2 p q) := by
  subst hd
  simp only [dense_ix2, matmul, truncf_apply, LibMlp.matmul_zero_plain]

/-- A kernel's bias, ReLU and matrix product: the bias one row repeated down the rows, the floor a zero splat. -/
theorem kernel_reluDense_f32_apply {R H O : ℕ} (d : DotDims ⟨2, ![R, H]⟩ ⟨2, ![H, O]⟩ ⟨2, ![R, O]⟩) (hd : d = DotDims.plain R H O)
    (a : FVec Ideal ⟨2, ![R, H]⟩ .f32) (b : FVec Ideal ⟨2, ![1, H]⟩ .f32) (w : FVec Ideal ⟨2, ![H, O]⟩ .f32)
    (ha : (⟨2, ![R, H]⟩ : Shape).ShapeCasts ⟨2, ![R, H]⟩) (hb : (⟨2, ![1, H]⟩ : Shape).ShapeCasts ⟨2, ![1, H]⟩)
    (hB : (⟨2, ![1, H]⟩ : Shape).Broadcasts ⟨2, ![R, H]⟩) (ht : FTy.bf16.bits < FTy.f32.bits) (p : Fin R) (q : Fin O) :
    matmul d none
        (truncf .bf16 (maximumf (addf (shapeCast ⟨2, ![R, H]⟩ a ha) (broadcastTo ⟨2, ![R, H]⟩ (shapeCast ⟨2, ![1, H]⟩ b hb) hB))
          (broadcast ⟨2, ![R, H]⟩ (Scalar.ofBits .f32 0x00000000#32))) ht)
        (truncf .bf16 w ht) (constant ⟨2, ![R, O]⟩ .f32 0x00000000#32) (ix2 p q)
      = reluDenseRow a b w (ix2 p q) := by
  subst hd
  simp only [reluDenseRow_ix2, matmul, truncf_apply, LibMlp.matmul_zero_plain, maximumf_apply, addf_apply, shapeCast_self,
    broadcastTo_1b_ab_apply, broadcast_apply]
  rfl

/-- A kernel's head: the same layer, a second one-row bias repeated down the rows, the vector unit's sigmoid. -/
theorem kernel_head_apply {R H O : ℕ} (d : DotDims ⟨2, ![R, H]⟩ ⟨2, ![H, O]⟩ ⟨2, ![R, O]⟩) (hd : d = DotDims.plain R H O)
    (a : FVec Ideal ⟨2, ![R, H]⟩ .f32) (b : FVec Ideal ⟨2, ![1, H]⟩ .f32) (w : FVec Ideal ⟨2, ![H, O]⟩ .f32)
    (c : FVec Ideal ⟨2, ![1, O]⟩ .f32)
    (ha : (⟨2, ![R, H]⟩ : Shape).ShapeCasts ⟨2, ![R, H]⟩) (hb : (⟨2, ![1, H]⟩ : Shape).ShapeCasts ⟨2, ![1, H]⟩)
    (hB : (⟨2, ![1, H]⟩ : Shape).Broadcasts ⟨2, ![R, H]⟩)
    (hc : (⟨2, ![1, O]⟩ : Shape).ShapeCasts ⟨2, ![1, O]⟩) (hC : (⟨2, ![1, O]⟩ : Shape).Broadcasts ⟨2, ![R, O]⟩)
    (ht : FTy.bf16.bits < FTy.f32.bits) (p : Fin R) (q : Fin O) :
    logistic (addf
        (matmul d none
          (truncf .bf16 (maximumf (addf (shapeCast ⟨2, ![R, H]⟩ a ha) (broadcastTo ⟨2, ![R, H]⟩ (shapeCast ⟨2, ![1, H]⟩ b hb) hB))
            (broadcast ⟨2, ![R, H]⟩ (Scalar.ofBits .f32 0x00000000#32))) ht)
          (truncf .bf16 w ht) (constant ⟨2, ![R, O]⟩ .f32 0x00000000#32))
        (broadcastTo ⟨2, ![R, O]⟩ (shapeCast ⟨2, ![1, O]⟩ c hc) hC)) (ix2 p q)
      = headRow a b w c (ix2 p q) := by
  rw [logistic_apply, addf_apply, kernel_reluDense_f32_apply d hd a b w ha hb hB ht p q, headRow_ix2, reluDenseRow_ix2,
    broadcastTo_1b_ab_apply, shapeCast_self]

/-! ## The host spellings, as whole arrays -/

/-- The host's `dot_general` with the plain dimension numbers is the product. -/
theorem host_dense_eq {R I O : ℕ} (d : DotDims ⟨2, ![R, I]⟩ ⟨2, ![I, O]⟩ ⟨2, ![R, O]⟩) (hd : d = DotDims.plain R I O)
    (x : FVec Ideal ⟨2, ![R, I]⟩ .f32) (w : FVec Ideal ⟨2, ![I, O]⟩ .f32) :
    (Host.dotGeneral d none x w : Mat R O) = dense x w := by
  funext i
  obtain ⟨p, q, rfl⟩ : ∃ (p : Fin R) (q : Fin O), i = ix2 p q := ⟨i 0, i 1, eq_ix2 i⟩
  exact host_dense_apply d hd x w p q

/-- The host's bias, ReLU and matrix product is the layer. -/
theorem host_reluDense_eq {R H O : ℕ} (d : DotDims ⟨2, ![R, H]⟩ ⟨2, ![H, O]⟩ ⟨2, ![R, O]⟩) (hd : d = DotDims.plain R H O)
    (a : FVec Ideal ⟨2, ![R, H]⟩ .f32) (b : FVec Ideal ⟨1, ![H]⟩ .f32) (w : FVec Ideal ⟨2, ![H, O]⟩ .f32)
    (hb : (⟨1, ![H]⟩ : Shape).BroadcastsInDim ⟨2, ![1, H]⟩ ![1]) (hB : (⟨2, ![1, H]⟩ : Shape).BroadcastsInDim ⟨2, ![R, H]⟩ ![0, 1])
    (hz : (⟨0, ![]⟩ : Shape).BroadcastsInDim ⟨2, ![R, H]⟩ ![]) :
    (Host.dotGeneral d none
        (maximumf (addf a (broadcastInDim ⟨2, ![R, H]⟩ ![0, 1] hB (broadcastInDim ⟨2, ![1, H]⟩ ![1] hb b)))
          (broadcastInDim ⟨2, ![R, H]⟩ ![] hz (constant (F := Ideal) ⟨0, ![]⟩ .f32 0x00000000#32))) w : Mat R O)
      = reluDense a b w := by
  funext i
  obtain ⟨p, q, rfl⟩ : ∃ (p : Fin R) (q : Fin O), i = ix2 p q := ⟨i 0, i 1, eq_ix2 i⟩
  exact host_reluDense_apply d hd a b w hb hB hz p q

/-- The host's head — the layer's `dot_general`, a second bias broadcast in two steps, and the sigmoid written out as
    one over one plus the exponential of the negated argument, its two ones broadcast scalars — is the head. -/
theorem host_head_eq {R H O : ℕ} (d : DotDims ⟨2, ![R, H]⟩ ⟨2, ![H, O]⟩ ⟨2, ![R, O]⟩) (hd : d = DotDims.plain R H O)
    (a : FVec Ideal ⟨2, ![R, H]⟩ .f32) (b : FVec Ideal ⟨1, ![H]⟩ .f32) (w : FVec Ideal ⟨2, ![H, O]⟩ .f32) (c : FVec Ideal ⟨1, ![O]⟩ .f32)
    (hb : (⟨1, ![H]⟩ : Shape).BroadcastsInDim ⟨2, ![1, H]⟩ ![1]) (hB : (⟨2, ![1, H]⟩ : Shape).BroadcastsInDim ⟨2, ![R, H]⟩ ![0, 1])
    (hz : (⟨0, ![]⟩ : Shape).BroadcastsInDim ⟨2, ![R, H]⟩ ![])
    (hc : (⟨1, ![O]⟩ : Shape).BroadcastsInDim ⟨2, ![1, O]⟩ ![1]) (hC : (⟨2, ![1, O]⟩ : Shape).BroadcastsInDim ⟨2, ![R, O]⟩ ![0, 1])
    (ho : (⟨0, ![]⟩ : Shape).BroadcastsInDim ⟨2, ![R, O]⟩ ![]) :
    (Host.divf (broadcastInDim ⟨2, ![R, O]⟩ ![] ho (constant (F := Ideal) ⟨0, ![]⟩ .f32 0x3F800000#32))
        (addf (broadcastInDim ⟨2, ![R, O]⟩ ![] ho (constant (F := Ideal) ⟨0, ![]⟩ .f32 0x3F800000#32))
          (Host.exp (Host.negf (addf
            (Host.dotGeneral d none
              (maximumf (addf a (broadcastInDim ⟨2, ![R, H]⟩ ![0, 1] hB (broadcastInDim ⟨2, ![1, H]⟩ ![1] hb b)))
                (broadcastInDim ⟨2, ![R, H]⟩ ![] hz (constant (F := Ideal) ⟨0, ![]⟩ .f32 0x00000000#32))) w)
            (broadcastInDim ⟨2, ![R, O]⟩ ![0, 1] hC (broadcastInDim ⟨2, ![1, O]⟩ ![1] hc c)))))) : Mat R O)
      = head a b w c := by
  funext i
  obtain ⟨p, q, rfl⟩ : ∃ (p : Fin R) (q : Fin O), i = ix2 p q := ⟨i 0, i 1, eq_ix2 i⟩
  rw [hostDivf_apply, addf_apply, hostExp_apply, hostNegf_apply, addf_apply, hostSplat_apply, hostBias_apply c hc hC p q,
    host_reluDense_apply d hd a b w hb hB hz p q, head_ix2, reluDense_ix2, constant_apply]
  exact LibLogistic.logistic_spelled_host _

end Cert.LibGcnHead

end
-- ==== Proof.Layer1.lean ====
/-
  The first kernel call, as one function of the arrays it is entered with.  Its grid has five points; point `t` reads
  rows `20000·t … 20000·t + 19999` of the node features `x` (a `[100000, 16]` array) and the whole weight matrix `w`,
  and writes rows `20000·t …` of the result: the product `x · w` on those rows.  Every entry of the product depends on one
  row of `x` only, so the block a point writes is that block of the product of the WHOLE array; the five blocks tile the
  result, so after the call the result array is `dense x w`.
-/
import proofs.«105885_j16003048145307_1_alg».proof.Proof.Gen.KernelIdeal.Frame
import proofs.«105885_j16003048145307_1_alg».proof.Proof.LibGcnHead
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open Cert.LibGcn Cert.LibGcnHead

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the features' and the result's blocks move with the point along the rows, the
    weights are one block. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's arithmetic at an entry of the block: the product of the block's rows. -/
theorem pay_apply (x0 : Vec Ideal S20000x16 .f32) (x1 : Vec Ideal S16x64 .f32) (p : Fin 20000) (q : Fin 64) :
    k0_pay1 x0 x1 (ix2 p q) = dense x0 x1 (ix2 p q) := by
  unfold k0_pay1
  exact kernel_dense_f32_apply dot_S20000x16_S16x64_S20000x64_1_0_0_1_n_n rfl x0 x1 _ p q

/-- Entry `y` of a block whose row `y 0` is row `i 0` of `X` is entry `i` of the product of `X`, when the columns agree. -/
theorem block_apply (X : Mat 100000 16) (W : Mat 16 64) (x0 : Vec Ideal S20000x16 .f32)
    (y : S20000x64.Idx) (i : S100000x64.Idx)
    (h0 : ∀ k : Fin 16, x0 (ix2 (y 0) k) = X (ix2 (i 0) k)) (hq : (y 1).val = (i 1).val) :
    k0_pay1 x0 W y = dense X W i := by
  obtain ⟨p, q, rfl⟩ : ∃ (p : Fin 20000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q = q' := Fin.ext hq
  rw [pay_apply]
  exact dense_rows X x0 W p r q h0

/-- The features' block at point `t`, entry `z`: the array's entry `20000·t` rows further down. -/
theorem read_0 (c : Dev nD) (t : Fin cfg0.N) (z : S20000x16.Idx) (i : S100000x16.Idx)
    (h0 : (i 0).val = t.val * 20000 + (z 0).val) (h1 : (i 1).val = (z 1).val) :
    (iblk0 V c 0 t : Vec Ideal S20000x16 .f32) z = (V c main_arg0 : Mat 100000 16) i := by
  obtain ⟨e00, e01, -⟩ := idx t
  show V c main_arg0 (((cfg0.win 0).blk t).view.emb z) = V c main_arg0 i
  refine congrArg (V c main_arg0) (funext fun a => Fin.ext ?_)
  match a with
  | ⟨0, _⟩ => show win0_0.index t (0 : Fin 2) * 20000 + 1 * (z 0).val = (i 0).val; rw [e00, h0]; omega
  | ⟨1, _⟩ => show win0_0.index t (1 : Fin 2) * 16 + 1 * (z 1).val = (i 1).val; rw [e01, h1]; omega

/-- The weights' one block is the whole matrix. -/
theorem read_1 (c : Dev nD) (t : Fin cfg0.N) : (iblk0 V c 1 t : Vec Ideal S16x64 .f32) = V c main_arg2 := by
  obtain ⟨-, -, e10, e11, -⟩ := idx t
  funext z
  show V c main_arg2 (((cfg0.win 1).blk t).view.emb z) = V c main_arg2 z
  refine congrArg (V c main_arg2) (funext fun a => Fin.ext ?_)
  match a with
  | ⟨0, _⟩ => show win0_1.index t (0 : Fin 2) * 16 + 1 * (z 0).val = (z 0).val; rw [e10]; omega
  | ⟨1, _⟩ => show win0_1.index t (1 : Fin 2) * 64 + 1 * (z 1).val = (z 1).val; rw [e11]; omega

/-- Where entry `y` of the result's block at point `t` sits in the result array. -/
theorem emb_out (t : Fin cfg0.N) (y : S20000x64.Idx) :
    ((((cfg0.win 2).blk t).view.emb y) 0).val = t.val * 20000 + (y 0).val
      ∧ ((((cfg0.win 2).blk t).view.emb y) 1).val = (y 1).val := by
  obtain ⟨-, -, -, -, e20, e21⟩ := idx t
  constructor
  · show win0_2.index t (0 : Fin 2) * 20000 + 1 * (y 0).val = _; rw [e20]; omega
  · show win0_2.index t (1 : Fin 2) * 64 + 1 * (y 1).val = _; rw [e21]; omega

/-- WHAT POINT `t` WRITES BACK is block `t` of the product of the whole arrays as the call finds them. -/
theorem flushed_eq (c : Dev nD) (t : Fin cfg0.N) :
    (dat0 V c).flushed 2 t
      = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero hz]
  simp only [View.ld_unit_zero (S := S20000x16) hz, View.ld_unit_zero (S := S16x64) hz]
  rw [read_1 V c t]
  funext y
  obtain ⟨h0, h1⟩ := emb_out t y
  show k0_pay1 (iblk0 V c 0 t) (V c main_arg2) y
    = dense (V c main_arg0) (V c main_arg2) (((cfg0.win 2).blk t).view.emb y)
  refine block_apply (V c main_arg0) (V c main_arg2) (iblk0 V c 0 t) y _ (fun k => ?_) h1.symm
  exact read_0 V c t (ix2 (y 0) k) _ h0 rfl

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S20000x64.size a ≤ (i a).val
      ∧ (i a).val < win0_2.index t a * S20000x64.size a + S20000x64.size a := by
  show i ∈ ((View.whole main_v30).slice (win0_2.rect t)).set ↔ _
  rw [View.set_slice_whole, Rect.mem_set_unit]
  exact Iff.rfl

/-- The five blocks tile the result: row `r` is in the block of point `r / 20000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 5 := N_0
  obtain ⟨t, ht⟩ : ∃ t : Fin cfg0.N, t.val = (i 0).val / 20000 := ⟨⟨(i 0).val / 20000, by rw [hN]; omega⟩, rfl⟩
  obtain ⟨-, -, -, -, e20, e21⟩ := idx t
  refine ⟨t, flush0_2 t, ?_⟩
  rw [mem_blk]
  intro a
  match a with
  | ⟨0, _⟩ =>
    show win0_2.index t (0 : Fin 2) * 20000 ≤ (i 0).val ∧ (i 0).val < win0_2.index t (0 : Fin 2) * 20000 + 20000
    rw [e20, ht]; omega
  | ⟨1, _⟩ =>
    show win0_2.index t (1 : Fin 2) * 64 ≤ (i 1).val ∧ (i 1).val < win0_2.index t (1 : Fin 2) * 64 + 64
    rw [e21]; omega

/-- THE RESULT ARRAY after the call: the product of the arrays the call was entered with. -/
theorem final (c : Dev nD) :
    (dat0 V c).arrAt 2 cfg0.N = dense (V c main_arg0) (V c main_arg2) :=
  (dat0 V c).arrAt_eq_of_cover 2 _ (fun t _ => flushed_eq V c t) cover

end Cert.KernelIdeal.Layer1

end
-- ==== Proof.Layer2.lean ====
/-
  The second kernel call, as one function of the arrays it is entered with.  Its grid has five points; point `t` reads
  rows `20000·t … 20000·t + 19999` of the aggregated features `a` (a `[100000, 64]` array), the whole one-row bias
  `b` and the whole weight matrix `w`, and writes rows `20000·t …` of the result: `relu (a + b) · w` on those rows.
  Every entry of that layer depends on one row of `a` only, so the block a point writes is that block of the layer of
  the WHOLE array; the five blocks tile the result, so after the call the result array is `reluDenseRow a b w`.
-/
import proofs.«105885_j16003048145307_1_alg».proof.Proof.Gen.KernelIdeal.Frame
import proofs.«105885_j16003048145307_1_alg».proof.Proof.LibGcnHead
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open Cert.LibGcn Cert.LibGcnHead

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the features' and the result's blocks move with the point along the rows, the
    bias and the weights are one block each. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's arithmetic at an entry of the block: the layer of the block's rows. -/
theorem pay_apply (x0 : Vec Ideal S20000x64 .f32) (x1 : Vec Ideal S1x64 .f32) (x2 : Vec Ideal S64x64 .f32) (p : Fin 20000) (q : Fin 64) :
    k1_pay1 x0 x1 x2 (ix2 p q) = reluDenseRow x0 x1 x2 (ix2 p q) := by
  unfold k1_pay1
  exact kernel_reluDense_f32_apply dot_S20000x64_S64x64_S20000x64_1_0_0_1_n_n rfl x0 x1 x2 _ _ _ _ p q

/-- Entry `y` of a block whose row `y 0` is row `i 0` of `A` is entry `i` of the layer of `A`, when the columns agree. -/
theorem block_apply (A : Mat 100000 64) (B : Mat 1 64) (W : Mat 64 64) (x0 : Vec Ideal S20000x64 .f32)
    (y : S20000x64.Idx) (i : S100000x64.Idx)
    (h0 : ∀ k : Fin 64, x0 (ix2 (y 0) k) = A (ix2 (i 0) k)) (hq : (y 1).val = (i 1).val) :
    k1_pay1 x0 B W y = reluDenseRow A B W i := by
  obtain ⟨p, q, rfl⟩ : ∃ (p : Fin 20000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q = q' := Fin.ext hq
  rw [pay_apply]
  exact reluDenseRow_rows A x0 B W p r q h0

/-- The features' block at point `t`, entry `z`: the array's entry `20000·t` rows further down. -/
theorem read_0 (c : Dev nD) (t : Fin cfg1.N) (z : S20000x64.Idx) (i : S100000x64.Idx)
    (h0 : (i 0).val = t.val * 20000 + (z 0).val) (h1 : (i 1).val = (z 1).val) :
    (iblk1 V c 0 t : Vec Ideal S20000x64 .f32) z = (V c main_v43 : Mat 100000 64) i := by
  obtain ⟨e00, e01, -⟩ := idx t
  show V c main_v43 (((cfg1.win 0).blk t).view.emb z) = V c main_v43 i
  refine congrArg (V c main_v43) (funext fun a => Fin.ext ?_)
  match a with
  | ⟨0, _⟩ => show win1_0.index t (0 : Fin 2) * 20000 + 1 * (z 0).val = (i 0).val; rw [e00, h0]; omega
  | ⟨1, _⟩ => show win1_0.index t (1 : Fin 2) * 64 + 1 * (z 1).val = (i 1).val; rw [e01, h1]; omega

/-- The bias' one block is the whole bias row. -/
theorem read_1 (c : Dev nD) (t : Fin cfg1.N) : (iblk1 V c 1 t : Vec Ideal S1x64 .f32) = V c main_v44 := by
  obtain ⟨-, -, e10, e11, -⟩ := idx t
  funext z
  show V c main_v44 (((cfg1.win 1).blk t).view.emb z) = V c main_v44 z
  refine congrArg (V c main_v44) (funext fun a => Fin.ext ?_)
  match a with
  | ⟨0, _⟩ => show win1_1.index t (0 : Fin 2) * 1 + 1 * (z 0).val = (z 0).val; rw [e10]; omega
  | ⟨1, _⟩ => show win1_1.index t (1 : Fin 2) * 64 + 1 * (z 1).val = (z 1).val; rw [e11]; omega

/-- The weights' one block is the whole matrix. -/
theorem read_2 (c : Dev nD) (t : Fin cfg1.N) : (iblk1 V c 2 t : Vec Ideal S64x64 .f32) = V c main_arg4 := by
  obtain ⟨-, -, -, -, e20, e21, -⟩ := idx t
  funext z
  show V c main_arg4 (((cfg1.win 2).blk t).view.emb z) = V c main_arg4 z
  refine congrArg (V c main_arg4) (funext fun a => Fin.ext ?_)
  match a with
  | ⟨0, _⟩ => show win1_2.index t (0 : Fin 2) * 64 + 1 * (z 0).val = (z 0).val; rw [e20]; omega
  | ⟨1, _⟩ => show win1_2.index t (1 : Fin 2) * 64 + 1 * (z 1).val = (z 1).val; rw [e21]; omega

/-- Where entry `y` of the result's block at point `t` sits in the result array. -/
theorem emb_out (t : Fin cfg1.N) (y : S20000x64.Idx) :
    ((((cfg1.win 3).blk t).view.emb y) 0).val = t.val * 20000 + (y 0).val
      ∧ ((((cfg1.win 3).blk t).view.emb y) 1).val = (y 1).val := by
  obtain ⟨-, -, -, -, -, -, e30, e31⟩ := idx t
  constructor
  · show win1_3.index t (0 : Fin 2) * 20000 + 1 * (y 0).val = _; rw [e30]; omega
  · show win1_3.index t (1 : Fin 2) * 64 + 1 * (y 1).val = _; rw [e31]; omega

/-- WHAT POINT `t` WRITES BACK is block `t` of the layer of the whole arrays as the call finds them. -/
theorem flushed_eq (c : Dev nD) (t : Fin cfg1.N) :
    (dat1 V c).flushed 3 t
      = ((cfg1.win 3).blk t).view.read (Elt Ideal) (reluDenseRow (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S20000x64) hz, View.ld_unit_zero (S := S1x64) hz, View.ld_unit_zero (S := S64x64) hz]
  rw [read_1 V c t, read_2 V c t]
  funext y
  obtain ⟨h0, h1⟩ := emb_out t y
  show k1_pay1 (iblk1 V c 0 t) (V c main_v44) (V c main_arg4) y
    = reluDenseRow (V c main_v43) (V c main_v44) (V c main_arg4) (((cfg1.win 3).blk t).view.emb y)
  refine block_apply (V c main_v43) (V c main_v44) (V c main_arg4) (iblk1 V c 0 t) y _ (fun k => ?_) h1.symm
  exact read_0 V c t (ix2 (y 0) k) _ h0 rfl

/-- An index of the result array is in point `t`'s block iff each coordinate is in the block's range on its axis. -/
theorem mem_blk (t : Fin cfg1.N) (i : S100000x64.Idx) :
    i ∈ ((cfg1.win 3).blk t).view.set ↔ ∀ a : Fin 2, win1_3.index t a * S20000x64.size a ≤ (i a).val
      ∧ (i a).val < win1_3.index t a * S20000x64.size a + S20000x64.size a := by
  show i ∈ ((View.whole main_v45).slice (win1_3.rect t)).set ↔ _
  rw [View.set_slice_whole, Rect.mem_set_unit]
  exact Iff.rfl

/-- The five blocks tile the result: row `r` is in the block of point `r / 20000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 5 := N_1
  obtain ⟨t, ht⟩ : ∃ t : Fin cfg1.N, t.val = (i 0).val / 20000 := ⟨⟨(i 0).val / 20000, by rw [hN]; omega⟩, rfl⟩
  obtain ⟨-, -, -, -, -, -, e30, e31⟩ := idx t
  refine ⟨t, flush1_3 t, ?_⟩
  rw [mem_blk]
  intro a
  match a with
  | ⟨0, _⟩ =>
    show win1_3.index t (0 : Fin 2) * 20000 ≤ (i 0).val ∧ (i 0).val < win1_3.index t (0 : Fin 2) * 20000 + 20000
    rw [e30, ht]; omega
  | ⟨1, _⟩ =>
    show win1_3.index t (1 : Fin 2) * 64 ≤ (i 1).val ∧ (i 1).val < win1_3.index t (1 : Fin 2) * 64 + 64
    rw [e31]; omega

/-- THE RESULT ARRAY after the call: the layer of the arrays the call was entered with. -/
theorem final (c : Dev nD) :
    (dat1 V c).arrAt 3 cfg1.N = reluDenseRow (V c main_v43) (V c main_v44) (V c main_arg4) :=
  (dat1 V c).arrAt_eq_of_cover 3 _ (fun t _ => flushed_eq V c t) cover

end Cert.KernelIdeal.Layer2

end
-- ==== Proof.Layer3.lean ====
/-
  The third kernel call, as one function of the arrays it is entered with.  Its grid has five points; point `t` reads
  rows `20000·t … 20000·t + 19999` of the aggregated features `a` (a `[100000, 64]` array), the whole one-row bias
  `b`, the whole weight column `w` and the one-entry bias `c`, and writes rows `20000·t …` of the `[100000, 1]` result:
  `sigmoid (relu (a + b) · w + c)` on those rows.  Every entry of that head depends on one row of `a` only, so the block a
  point writes is that block of the head of the WHOLE array; the five blocks tile the result, so after the call the
  result array is `headRow a b w c`.
-/
import proofs.«105885_j16003048145307_1_alg».proof.Proof.Gen.KernelIdeal.Frame
import proofs.«105885_j16003048145307_1_alg».proof.Proof.LibGcnHead
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open Cert.LibGcn Cert.LibGcnHead

namespace Cert.KernelIdeal.Layer3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the features' and the result's blocks move with the point along the rows, the
    two biases and the weights are one block each. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The body's arithmetic at an entry of the block: the head of the block's rows. -/
theorem pay_apply (x0 : Vec Ideal S20000x64 .f32) (x1 : Vec Ideal S1x64 .f32) (x2 : Vec Ideal S64x1 .f32) (x3 : Vec Ideal S1x1 .f32)
    (p : Fin 20000) (q : Fin 1) :
    k2_pay1 x0 x1 x2 x3 (ix2 p q) = headRow x0 x1 x2 x3 (ix2 p q) := by
  unfold k2_pay1
  exact kernel_head_apply dot_S20000x64_S64x1_S20000x1_1_0_0_1_n_n rfl x0 x1 x2 x3 _ _ _ _ _ _ p q

/-- Entry `y` of a block whose row `y 0` is row `i 0` of `A` is entry `i` of the head of `A`, when the columns agree. -/
theorem block_apply (A : Mat 100000 64) (B : Mat 1 64) (W : Mat 64 1) (Cb : Mat 1 1) (x0 : Vec Ideal S20000x64 .f32)
    (y : S20000x1.Idx) (i : S100000x1.Idx)
    (h0 : ∀ k : Fin 64, x0 (ix2 (y 0) k) = A (ix2 (i 0) k)) (hq : (y 1).val = (i 1).val) :
    k2_pay1 x0 B W Cb y = headRow A B W Cb i := by
  obtain ⟨p, q, rfl⟩ : ∃ (p : Fin 20000) (q : Fin 1), y = ix2 p q := ⟨y 0, y 1, eq_ix2 y⟩
  obtain ⟨r, q', rfl⟩ : ∃ (r : Fin 100000) (q' : Fin 1), i = ix2 r q' := ⟨i 0, i 1, eq_ix2 i⟩
  obtain rfl : q = q' := Fin.ext hq
  rw [pay_apply]
  exact headRow_rows A x0 B W Cb p r q h0

/-- The features' block at point `t`, entry `z`: the array's entry `20000·t` rows further down. -/
theorem read_0 (c : Dev nD) (t : Fin cfg2.N) (z : S20000x64.Idx) (i : S100000x64.Idx)
    (h0 : (i 0).val = t.val * 20000 + (z 0).val) (h1 : (i 1).val = (z 1).val) :
    (iblk2 V c 0 t : Vec Ideal S20000x64 .f32) z = (V c main_v58 : Mat 100000 64) i := by
  obtain ⟨e00, e01, -⟩ := idx t
  show V c main_v58 (((cfg2.win 0).blk t).view.emb z) = V c main_v58 i
  refine congrArg (V c main_v58) (funext fun a => Fin.ext ?_)
  match a with
  | ⟨0, _⟩ => show win2_0.index t (0 : Fin 2) * 20000 + 1 * (z 0).val = (i 0).val; rw [e00, h0]; omega
  | ⟨1, _⟩ => show win2_0.index t (1 : Fin 2) * 64 + 1 * (z 1).val = (i 1).val; rw [e01, h1]; omega

/-- The first bias' one block is the whole bias row. -/
theorem read_1 (c : Dev nD) (t : Fin cfg2.N) : (iblk2 V c 1 t : Vec Ideal S1x64 .f32) = V c main_v59 := by
  obtain ⟨-, -, e10, e11, -⟩ := idx t
  funext z
  show V c main_v59 (((cfg2.win 1).blk t).view.emb z) = V c main_v59 z
  refine congrArg (V c main_v59) (funext fun a => Fin.ext ?_)
  match a with
  | ⟨0, _⟩ => show win2_1.index t (0 : Fin 2) * 1 + 1 * (z 0).val = (z 0).val; rw [e10]; omega
  | ⟨1, _⟩ => show win2_1.index t (1 : Fin 2) * 64 + 1 * (z 1).val = (z 1).val; rw [e11]; omega

/-- The weights' one block is the whole column. -/
theorem read_2 (c : Dev nD) (t : Fin cfg2.N) : (iblk2 V c 2 t : Vec Ideal S64x1 .f32) = V c main_arg6 := by
  obtain ⟨-, -, -, -, e20, e21, -⟩ := idx t
  funext z
  show V c main_arg6 (((cfg2.win 2).blk t).view.emb z) = V c main_arg6 z
  refine congrArg (V c main_arg6) (funext fun a => Fin.ext ?_)
  match a with
  | ⟨0, _⟩ => show win2_2.index t (0 : Fin 2) * 64 + 1 * (z 0).val = (z 0).val; rw [e20]; omega
  | ⟨1, _⟩ => show win2_2.index t (1 : Fin 2) * 1 + 1 * (z 1).val = (z 1).val; rw [e21]; omega

/-- The second bias' one block is its one entry. -/
theorem read_3 (c : Dev nD) (t : Fin cfg2.N) : (iblk2 V c 3 t : Vec Ideal S1x1 .f32) = V c main_v60 := by
  obtain ⟨-, -, -, -, -, -, e30, e31, -⟩ := idx t
  funext z
  show V c main_v60 (((cfg2.win 3).blk t).view.emb z) = V c main_v60 z
  refine congrArg (V c main_v60) (funext fun a => Fin.ext ?_)
  match a with
  | ⟨0, _⟩ => show win2_3.index t (0 : Fin 2) * 1 + 1 * (z 0).val = (z 0).val; rw [e30]; omega
  | ⟨1, _⟩ => show win2_3.index t (1 : Fin 2) * 1 + 1 * (z 1).val = (z 1).val; rw [e31]; omega

/-- Where entry `y` of the result's block at point `t` sits in the result array. -/
theorem emb_out (t : Fin cfg2.N) (y : S20000x1.Idx) :
    ((((cfg2.win 4).blk t).view.emb y) 0).val = t.val * 20000 + (y 0).val
      ∧ ((((cfg2.win 4).blk t).view.emb y) 1).val = (y 1).val := by
  obtain ⟨-, -, -, -, -, -, -, -, e40, e41⟩ := idx t
  constructor
  · show win2_4.index t (0 : Fin 2) * 20000 + 1 * (y 0).val = _; rw [e40]; omega
  · show win2_4.index t (1 : Fin 2) * 1 + 1 * (y 1).val = _; rw [e41]; omega

/-- WHAT POINT `t` WRITES BACK is block `t` of the head of the whole arrays as the call finds them. -/
theorem flushed_eq (c : Dev nD) (t : Fin cfg2.N) :
    (dat2 V c).flushed 4 t
      = ((cfg2.win 4).blk t).view.read (Elt Ideal) (headRow (V c main_v58) (V c main_v59) (V c main_arg6) (V c main_v60)) := by
  show (cfg2.win 4).cut (grid2.coords t) ((dat2 V c).after 4 t) = _
  rw [after2_4]
  unfold out2_4
  rw [View.canon_unit_zero hz]
  simp only [View.ld_unit_zero (S := S20000x64) hz, View.ld_unit_zero (S := S1x64) hz, View.ld_unit_zero (S := S64x1) hz,
    View.ld_unit_zero (S := S1x1) hz]
  rw [read_1 V c t, read_2 V c t, read_3 V c t]
  funext y
  obtain ⟨h0, h1⟩ := emb_out t y
  show k2_pay1 (iblk2 V c 0 t) (V c main_v59) (V c main_arg6) (V c main_v60) y
    = headRow (V c main_v58) (V c main_v59) (V c main_arg6) (V c main_v60) (((cfg2.win 4).blk t).view.emb y)
  refine block_apply (V c main_v58) (V c main_v59) (V c main_arg6) (V c main_v60) (iblk2 V c 0 t) y _ (fun k => ?_) h1.symm
  exact read_0 V c t (ix2 (y 0) k) _ h0 rfl

/-- An index of the result array is in point `t`'s block iff each coordinate is in the block's range on its axis. -/
theorem mem_blk (t : Fin cfg2.N) (i : S100000x1.Idx) :
    i ∈ ((cfg2.win 4).blk t).view.set ↔ ∀ a : Fin 2, win2_4.index t a * S20000x1.size a ≤ (i a).val
      ∧ (i a).val < win2_4.index t a * S20000x1.size a + S20000x1.size a := by
  show i ∈ ((View.whole main_v61).slice (win2_4.rect t)).set ↔ _
  rw [View.set_slice_whole, Rect.mem_set_unit]
  exact Iff.rfl

/-- The five blocks tile the result: row `r` is in the block of point `r / 20000`. -/
theorem cover (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 5 := N_2
  obtain ⟨t, ht⟩ : ∃ t : Fin cfg2.N, t.val = (i 0).val / 20000 := ⟨⟨(i 0).val / 20000, by rw [hN]; omega⟩, rfl⟩
  obtain ⟨-, -, -, -, -, -, -, -, e40, e41⟩ := idx t
  refine ⟨t, flush2_4 t, ?_⟩
  rw [mem_blk]
  intro a
  match a with
  | ⟨0, _⟩ =>
    show win2_4.index t (0 : Fin 2) * 20000 ≤ (i 0).val ∧ (i 0).val < win2_4.index t (0 : Fin 2) * 20000 + 20000
    rw [e40, ht]; omega
  | ⟨1, _⟩ =>
    show win2_4.index t (1 : Fin 2) * 1 ≤ (i 1).val ∧ (i 1).val < win2_4.index t (1 : Fin 2) * 1 + 1
    rw [e41]; omega

/-- THE RESULT ARRAY after the call: the head of the arrays the call was entered with. -/
theorem final (c : Dev nD) :
    (dat2 V c).arrAt 4 cfg2.N = headRow (V c main_v58) (V c main_v59) (V c main_arg6) (V c main_v60) :=
  (dat2 V c).arrAt_eq_of_cover 4 _ (fun t _ => flushed_eq V c t) cover

end Cert.KernelIdeal.Layer3

end
-- ==== Proof.Boundaries.lean ====
/-
  The contents of the idealized kernel program's buffers at each of its boundaries, read back to the arguments.
  The program computes, from the edge list `e` alone, the source and target index vectors (each with the self loops
  appended) and the symmetric normalisation `norm`; then three times a dense stage in a kernel call, with the same
  gather – scale by `norm` – scatter-add over the targets between the calls.  Written with the reference program's own
  stage functions (`val_…`: one per host operation, each a function of the arguments):
  * before the first call the index vectors and `norm` are the reference's, and every argument is as launched;
  * the first call leaves the product `x · W1`, which is the reference's `dot_general` (`val_main_v15`);
  * the aggregation between the calls is operation by operation the reference's (`val_main_v43`, `val_main_v76`; the
    reference computes `norm` a second time, by the same operations of the same vectors);
  * the second call leaves `relu (agg + b1) · W2`, the reference's `val_main_v48`, and the third
    `sigmoid (relu (agg + b2) · Wf + bf)`, the reference's result `val_main_v90`, its sigmoid written out as
    `1 / (1 + exp (−t))`.
  No law of arithmetic beyond the stages' own is used: the two programs apply the same operations in the same order.
-/
import proofs.«105885_j16003048145307_1_alg».proof.Proof.Gen.KernelIdeal.Frame
import proofs.«105885_j16003048145307_1_alg».proof.Proof.Layer1
import proofs.«105885_j16003048145307_1_alg».proof.Proof.Layer2
import proofs.«105885_j16003048145307_1_alg».proof.Proof.Layer3
import proofs.«105885_j16003048145307_1_alg».proof.Proof.ReferenceRead
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open Cert.LibGcn Cert.LibGcnHead

namespace Cert.KernelIdeal.Fold

open Cert.KernelIdeal Cert.KernelIdeal.Gen
open Cert.ReferenceIdeal.ReadP

variable (m : (ℓ : Loc nD τ sig) → Buf (Elt Ideal) ℓ) (ρ : Dev nD → PrngReg)

/-- A buffer no operation of a stretch of host operations writes keeps its contents over the stretch. -/
macro "host_keeps" : tactic => `(tactic| (
  refine StableHlo.after_of_forall_not_mem _ _ (List.forall_iff_forall_mem.mp ?_)
  simp only [hostOps0, hostOps0_1, hostOps0_2, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## Before the first call -/

theorem W3_arg0 (c : Dev nD) : W3 m ρ c (Proc.devRef .tc main_arg0) = m ((c : Thread nD τ).loc main_arg0) :=
  (show W3 m ρ c (Proc.devRef .tc main_arg0) = W2 m ρ c (Proc.devRef .tc main_arg0) by host_keeps).trans
    ((show W2 m ρ c (Proc.devRef .tc main_arg0) = W1 m ρ c (Proc.devRef .tc main_arg0) by host_keeps).trans
      (show W1 m ρ c (Proc.devRef .tc main_arg0) = W0 m ρ c (Proc.devRef .tc main_arg0) by host_keeps))
theorem W3_arg1 (c : Dev nD) : W3 m ρ c (Proc.devRef .tc main_arg1) = m ((c : Thread nD τ).loc main_arg1) :=
  (show W3 m ρ c (Proc.devRef .tc main_arg1) = W2 m ρ c (Proc.devRef .tc main_arg1) by host_keeps).trans
    ((show W2 m ρ c (Proc.devRef .tc main_arg1) = W1 m ρ c (Proc.devRef .tc main_arg1) by host_keeps).trans
      (show W1 m ρ c (Proc.devRef .tc main_arg1) = W0 m ρ c (Proc.devRef .tc main_arg1) by host_keeps))
theorem W3_arg2 (c : Dev nD) : W3 m ρ c (Proc.devRef .tc main_arg2) = m ((c : Thread nD τ).loc main_arg2) :=
  (show W3 m ρ c (Proc.devRef .tc main_arg2) = W2 m ρ c (Proc.devRef .tc main_arg2) by host_keeps).trans
    ((show W2 m ρ c (Proc.devRef .tc main_arg2) = W1 m ρ c (Proc.devRef .tc main_arg2) by host_keeps).trans
      (show W1 m ρ c (Proc.devRef .tc main_arg2) = W0 m ρ c (Proc.devRef .tc main_arg2) by host_keeps))
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) by host_keeps).trans
    ((show W2 m ρ c (Proc.devRef .tc main_arg3) = W1 m ρ c (Proc.devRef .tc main_arg3) by host_keeps).trans
      (show W1 m ρ c (Proc.devRef .tc main_arg3) = W0 m ρ c (Proc.devRef .tc main_arg3) by host_keeps))
theorem W3_arg4 (c : Dev nD) : W3 m ρ c (Proc.devRef .tc main_arg4) = m ((c : Thread nD τ).loc main_arg4) :=
  (show W3 m ρ c (Proc.devRef .tc main_arg4) = W2 m ρ c (Proc.devRef .tc main_arg4) by host_keeps).trans
    ((show W2 m ρ c (Proc.devRef .tc main_arg4) = W1 m ρ c (Proc.devRef .tc main_arg4) by host_keeps).trans
      (show W1 m ρ c (Proc.devRef .tc main_arg4) = W0 m ρ c (Proc.devRef .tc main_arg4) by host_keeps))
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) by host_keeps).trans
    ((show W2 m ρ c (Proc.devRef .tc main_arg5) = W1 m ρ c (Proc.devRef .tc main_arg5) by host_keeps).trans
      (show W1 m ρ c (Proc.devRef .tc main_arg5) = W0 m ρ c (Proc.devRef .tc main_arg5) by host_keeps))
theorem W3_arg6 (c : Dev nD) : W3 m ρ c (Proc.devRef .tc main_arg6) = m ((c : Thread nD τ).loc main_arg6) :=
  (show W3 m ρ c (Proc.devRef .tc main_arg6) = W2 m ρ c (Proc.devRef .tc main_arg6) by host_keeps).trans
    ((show W2 m ρ c (Proc.devRef .tc main_arg6) = W1 m ρ c (Proc.devRef .tc main_arg6) by host_keeps).trans
      (show W1 m ρ c (Proc.devRef .tc main_arg6) = W0 m ρ c (Proc.devRef .tc main_arg6) by host_keeps))
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) by host_keeps).trans
    ((show W2 m ρ c (Proc.devRef .tc main_arg7) = W1 m ρ c (Proc.devRef .tc main_arg7) by host_keeps).trans
      (show W1 m ρ c (Proc.devRef .tc main_arg7) = W0 m ρ c (Proc.devRef .tc main_arg7) by host_keeps))

/-- After the first stretch: the source indices, self loops appended. -/
theorem W1_v3 (c : Dev nD) : W1 m ρ c (Proc.devRef .tc main_v3) = val_main_v3 (m ((c : Thread nD τ).loc main_arg1)) := by
  dsimp only [W1, hostOps0]
  after_results
  rfl

/-- The target indices, self loops appended. -/
theorem W1_v6 (c : Dev nD) : W1 m ρ c (Proc.devRef .tc main_v6) = val_main_v6 (m ((c : Thread nD τ).loc main_arg1)) := by
  dsimp only [W1, hostOps0]
  after_results
  rfl

/-- Which nodes have a positive degree (the degree: a scatter-add of ones over the targets). -/
theorem W1_v12 (c : Dev nD) : W1 m ρ c (Proc.devRef .tc main_v12) = val_main_v12 (m ((c : Thread nD τ).loc main_arg1)) := by
  dsimp only [W1, hostOps0]
  after_results
  rfl

/-- The reciprocal square roots of the degrees. -/
theorem W1_v13 (c : Dev nD) : W1 m ρ c (Proc.devRef .tc main_v13) = val_main_v13 (m ((c : Thread nD τ).loc main_arg1)) := by
  dsimp only [W1, hostOps0]
  after_results
  rfl

/-- The zero the selection falls back to. -/
theorem W1_cst_2 (c : Dev nD) : W1 m ρ c (Proc.devRef .tc main_cst_2) = val_main_cst_2 := by
  dsimp only [W1, hostOps0]
  after_results
  rfl

theorem W2_v3 (c : Dev nD) : W2 m ρ c (Proc.devRef .tc main_v3) = val_main_v3 (m ((c : Thread nD τ).loc main_arg1)) :=
  (show W2 m ρ c (Proc.devRef .tc main_v3) = W1 m ρ c (Proc.devRef .tc main_v3) by host_keeps).trans (W1_v3 m ρ c)

theorem W2_v6 (c : Dev nD) : W2 m ρ c (Proc.devRef .tc main_v6) = val_main_v6 (m ((c : Thread nD τ).loc main_arg1)) :=
  (show W2 m ρ c (Proc.devRef .tc main_v6) = W1 m ρ c (Proc.devRef .tc main_v6) by host_keeps).trans (W1_v6 m ρ c)

/-- The selection stretch, from any contents: the second operand where the mask holds, the third's one value elsewhere. -/
theorem where_result (V1 : Valuation τ sig (Elt Ideal)) :
    StableHlo.after hostOps0_1 V1 (Proc.devRef .tc main_v14)
      = select (V1 (Proc.devRef .tc main_v12)) (V1 (Proc.devRef .tc main_v13))
          (broadcastInDim S100000 ![] bcast_S_S100000 (id (V1 (Proc.devRef .tc main_cst_2)))) := by
  dsimp only [hostOps0_1]
  after_results
  rfl

/-- After the selection: the reciprocal square root of the degree where it is positive, zero elsewhere. -/
theorem W2_v14 (c : Dev nD) : W2 m ρ c (Proc.devRef .tc main_v14) = val_main_v14 (m ((c : Thread nD τ).loc main_arg1)) := by
  have h12 := W1_v12 m ρ c
  have h13 := W1_v13 m ρ c
  have hc := W1_cst_2 m ρ c
  dsimp only [W2]
  generalize W1 m ρ c = V1 at h12 h13 hc ⊢
  rw [where_result V1, h12, h13, hc]
  rfl

theorem W3_v3 (c : Dev nD) : W3 m ρ c (Proc.devRef .tc main_v3) = val_main_v3 (m ((c : Thread nD τ).loc main_arg1)) :=
  (show W3 m ρ c (Proc.devRef .tc main_v3) = W2 m ρ c (Proc.devRef .tc main_v3) by host_keeps).trans (W2_v3 m ρ c)

theorem W3_v6 (c : Dev nD) : W3 m ρ c (Proc.devRef .tc main_v6) = val_main_v6 (m ((c : Thread nD τ).loc main_arg1)) :=
  (show W3 m ρ c (Proc.devRef .tc main_v6) = W2 m ρ c (Proc.devRef .tc main_v6) by host_keeps).trans (W2_v6 m ρ c)

set_option maxHeartbeats 8000000 in
/-- The normalisation: the reciprocal square root of the degree (zero where the degree is not positive) gathered at the
    two end points of every edge, and the two multiplied. -/
theorem W3_v29 (c : Dev nD) : W3 m ρ c (Proc.devRef .tc main_v29) = val_main_v30 (m ((c : Thread nD τ).loc main_arg1)) := by
  have h14 := W2_v14 m ρ c
  have h3 := W2_v3 m ρ c
  have h6 := W2_v6 m ρ c
  dsimp only [W3]
  generalize W2 m ρ c = V2 at h14 h3 h6 ⊢
  dsimp only [hostOps0_2]
  after_results
  rw [h14, h3, h6]
  rfl

/-! ## After the first call -/

theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_v3 (c : Dev nD) : W4 m ρ c (Proc.devRef .tc main_v3) = val_main_v3 (m ((c : Thread nD τ).loc main_arg1)) :=
  (W4_of_ne m ρ c main_v3 (by decide)).trans (W3_v3 m ρ c)
theorem W4_v6 (c : Dev nD) : W4 m ρ c (Proc.devRef .tc main_v6) = val_main_v6 (m ((c : Thread nD τ).loc main_arg1)) :=
  (W4_of_ne m ρ c main_v6 (by decide)).trans (W3_v6 m ρ c)
theorem W4_v29 (c : Dev nD) : W4 m ρ c (Proc.devRef .tc main_v29) = val_main_v30 (m ((c : Thread nD τ).loc main_arg1)) :=
  (W4_of_ne m ρ c main_v29 (by decide)).trans (W3_v29 m ρ c)

/-- The first call's result is the reference's product `x · W1`. -/
theorem W4_v30 (c : Dev nD) : W4 m ρ c (Proc.devRef .tc main_v30) = val_main_v15 (m ((c : Thread nD τ).loc main_arg0)) (m ((c : Thread nD τ).loc main_arg2)) := by
  refine (W4_arr m ρ c 2).trans ((Layer1.final (V3 m ρ) c).trans ?_)
  rw [show V3 m ρ c main_arg0 = m ((c : Thread nD τ).loc main_arg0) from W3_arg0 m ρ c,
    show V3 m ρ c main_arg2 = m ((c : Thread nD τ).loc main_arg2) from W3_arg2 m ρ c]
  exact (host_dense_eq _ rfl _ _).symm

/-! ## Before the second call -/

theorem W5_arg4 (c : Dev nD) : W5 m ρ c (Proc.devRef .tc main_arg4) = m ((c : Thread nD τ).loc main_arg4) :=
  (show W5 m ρ c (Proc.devRef .tc main_arg4) = W4 m ρ c (Proc.devRef .tc main_arg4) by host_keeps).trans (W4_arg4 m ρ c)
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) by host_keeps).trans (W4_arg5 m ρ c)
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) by host_keeps).trans (W4_arg6 m ρ c)
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) by host_keeps).trans (W4_arg7 m ρ c)
theorem W5_v3 (c : Dev nD) : W5 m ρ c (Proc.devRef .tc main_v3) = val_main_v3 (m ((c : Thread nD τ).loc main_arg1)) :=
  (show W5 m ρ c (Proc.devRef .tc main_v3) = W4 m ρ c (Proc.devRef .tc main_v3) by host_keeps).trans (W4_v3 m ρ c)
theorem W5_v6 (c : Dev nD) : W5 m ρ c (Proc.devRef .tc main_v6) = val_main_v6 (m ((c : Thread nD τ).loc main_arg1)) :=
  (show W5 m ρ c (Proc.devRef .tc main_v6) = W4 m ρ c (Proc.devRef .tc main_v6) by host_keeps).trans (W4_v6 m ρ c)
theorem W5_v29 (c : Dev nD) : W5 m ρ c (Proc.devRef .tc main_v29) = val_main_v30 (m ((c : Thread nD τ).loc main_arg1)) :=
  (show W5 m ρ c (Proc.devRef .tc main_v29) = W4 m ρ c (Proc.devRef .tc main_v29) by host_keeps).trans (W4_v29 m ρ c)

set_option maxHeartbeats 8000000 in
/-- The aggregated first layer is the reference's. -/
theorem W5_v43 (c : Dev nD) : W5 m ρ c (Proc.devRef .tc main_v43) = val_main_v43 (m ((c : Thread nD τ).loc main_arg0)) (m ((c : Thread nD τ).loc main_arg1)) (m ((c : Thread nD τ).loc main_arg2)) := by
  dsimp only [W5, hostOps1]
  after_results
  rw [W4_v30 m ρ c, W4_v3 m ρ c, W4_v6 m ρ c, W4_v29 m ρ c]
  rfl

/-- The first bias as one row. -/
theorem W5_v44 (c : Dev nD) : W5 m ρ c (Proc.devRef .tc main_v44) = shapeCast S1x64 (m ((c : Thread nD τ).loc main_arg3)) shapeCasts_S64_S1x64 := by
  dsimp only [W5, hostOps1]
  after_results
  rw [W4_arg3 m ρ c]
  rfl

/-! ## After the second call -/

theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_v3 (c : Dev nD) : W6 m ρ c (Proc.devRef .tc main_v3) = val_main_v3 (m ((c : Thread nD τ).loc main_arg1)) :=
  (W6_of_ne m ρ c main_v3 (by decide)).trans (W5_v3 m ρ c)
theorem W6_v6 (c : Dev nD) : W6 m ρ c (Proc.devRef .tc main_v6) = val_main_v6 (m ((c : Thread nD τ).loc main_arg1)) :=
  (W6_of_ne m ρ c main_v6 (by decide)).trans (W5_v6 m ρ c)
theorem W6_v29 (c : Dev nD) : W6 m ρ c (Proc.devRef .tc main_v29) = val_main_v30 (m ((c : Thread nD τ).loc main_arg1)) :=
  (W6_of_ne m ρ c main_v29 (by decide)).trans (W5_v29 m ρ c)

/-- The second call's result is the reference's `relu (agg + b1) · W2`. -/
theorem W6_v45 (c : Dev nD) :
    W6 m ρ c (Proc.devRef .tc main_v45) = val_main_v48 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((Layer2.final (V5 m ρ) c).trans ?_)
  rw [show V5 m ρ c main_v43 = _ from W5_v43 m ρ c, show V5 m ρ c main_v44 = _ from W5_v44 m ρ c,
    show V5 m ρ c main_arg4 = _ from W5_arg4 m ρ c]
  rw [reluDenseRow_cast]
  exact (host_reluDense_eq _ rfl _ _ _ _ _ _).symm

/-! ## Before the third call -/

theorem W7_arg6 (c : Dev nD) : W7 m ρ c (Proc.devRef .tc main_arg6) = m ((c : Thread nD τ).loc main_arg6) :=
  (show W7 m ρ c (Proc.devRef .tc main_arg6) = W6 m ρ c (Proc.devRef .tc main_arg6) by host_keeps).trans (W6_arg6 m ρ c)

/-- The reference computes the normalisation a second time: the same operations of the same index vectors. -/
theorem norm_again (x1 : (⟨Cert.ReferenceIdeal.S2x3200000, .i32⟩ : BufTy).Contents (Elt Ideal)) :
    val_main_v63 (F := Ideal) x1 = val_main_v30 x1 := rfl

set_option maxHeartbeats 8000000 in
/-- The aggregated second layer is the reference's. -/
theorem W7_v58 (c : Dev nD) :
    W7 m ρ c (Proc.devRef .tc main_v58) = val_main_v76 (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W7, hostOps2]
  after_results
  rw [W6_v45 m ρ c, W6_v3 m ρ c, W6_v6 m ρ c, W6_v29 m ρ c, ← norm_again]
  rfl

/-- The second bias as one row. -/
theorem W7_v59 (c : Dev nD) : W7 m ρ c (Proc.devRef .tc main_v59) = shapeCast S1x64 (m ((c : Thread nD τ).loc main_arg5)) shapeCasts_S64_S1x64 := by
  dsimp only [W7, hostOps2]
  after_results
  rw [W6_arg5 m ρ c]
  rfl

/-- The last bias as a one-entry row. -/
theorem W7_v60 (c : Dev nD) : W7 m ρ c (Proc.devRef .tc main_v60) = shapeCast S1x1 (m ((c : Thread nD τ).loc main_arg7)) shapeCasts_S1_S1x1 := by
  dsimp only [W7, hostOps2]
  after_results
  rw [W6_arg7 m ρ c]
  rfl

/-! ## After the third call: the result -/

/-- THE RESULT: the kernel program's result buffer ends holding the reference's result term of the arguments. -/
theorem result (c : Dev nD) :
    W8 m ρ c (Proc.devRef .tc main_v61) = val_main_v90 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 4).trans ((Layer3.final (V7 m ρ) c).trans ?_)
  rw [show V7 m ρ c main_v58 = _ from W7_v58 m ρ c, show V7 m ρ c main_v59 = _ from W7_v59 m ρ c,
    show V7 m ρ c main_v60 = _ from W7_v60 m ρ c, show V7 m ρ c main_arg6 = _ from W7_arg6 m ρ c]
  rw [headRow_cast]
  exact (host_head_eq _ rfl _ _ _ _ _ _ _ _ _ _).symm

end Cert.KernelIdeal.Fold

end
-- ==== Proof.lean ====
/-
  The certificate of a two-layer graph convolution with a sigmoid head, `N = 100000` nodes and `3200000` edges plus
  one self loop per node.

  Both programs compute, from the edge list alone, the source and target index vectors, the node degrees (a
  scatter-add of ones over the targets) and the symmetric normalisation `norm e = d(source e)^(-1/2) · d(target e)^(-1/2)`
  (zero where the degree is not positive), and then
      h1  = relu (agg (x · W1) + b1),   h2 = relu (agg (h1 · W2) + b2),   out = sigmoid (h2 · Wf + bf),
  where `agg y` gathers the rows of `y` at the sources, scales row `e` by `norm e` and adds it into row `target e`.
  The reference does all of it on the host.  The kernel program does the three dense stages — `x · W1`,
  `relu (· + b1) · W2` and `sigmoid (relu (· + b2) · Wf + bf)` — in three kernel calls over five blocks of 20000 rows each,
  with operands rounded to bfloat16 on the way into each product (the identity on the extended reals), and the
  aggregations on the host between the calls, by the reference's own operations in the reference's order.

  On the extended reals a block of rows of a dense stage is that stage of the block's rows (each entry depends on one
  row of the left operand), a product into a zero accumulator and the host's `dot_general` are the same sum, and the
  sigmoid the reference writes out as `1 / (1 + exp (−t))` is the vector unit's sigmoid at every `t`, the infinities
  included.  So the two results are one term of the arguments, and the finiteness of the inputs is not used.

  Layer1 / Layer2 / Layer3: each kernel call's result array as one function of the arrays it is entered with.
  KernelRun: the kernel program's run, its result buffer named by the fold of the buffers' contents through the program.
  Boundaries: that fold read back to the arguments, stage by stage, in the reference's own stage functions.
  ReferenceRun / ReferenceRead: the reference's run and its stage functions.
-/
import proofs.«105885_j16003048145307_1_alg».proof.Defs
import proofs.«105885_j16003048145307_1_alg».proof.Proof.Gen.Kernel
import proofs.«105885_j16003048145307_1_alg».proof.Proof.Gen.Kernel.Frame
import proofs.«105885_j16003048145307_1_alg».proof.Proof.Gen.KernelIdeal
import proofs.«105885_j16003048145307_1_alg».proof.Proof.Gen.KernelIdeal.Frame
import proofs.«105885_j16003048145307_1_alg».proof.Proof.Gen.ReferenceIdeal
import proofs.«105885_j16003048145307_1_alg».proof.Proof.Gen.Pre_finite_inputs
import proofs.«105885_j16003048145307_1_alg».proof.Proof.KernelRun
import proofs.«105885_j16003048145307_1_alg».proof.Proof.Boundaries
import proofs.«105885_j16003048145307_1_alg».proof.Proof.ReferenceRun
import proofs.«105885_j16003048145307_1_alg».proof.Proof.ReferenceRead
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing: the idealized kernel is the printed one read on the extended reals. -/
theorem preserves : Cert.preserves_Kernel_KernelIdeal := trivial

/-- From memories agreeing on the arguments both programs end with the reference's result term of the arguments: the
    kernel program by the fold through its three calls, the reference by its own run. -/
theorem algebraic : Cert.algebraic_KernelIdeal_ReferenceIdeal := by
  intro m ρ m' ρ' _ hagree
  refine ⟨fun c => Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.result m ρ c), (h c).2⟩)
      (Cert.KernelIdeal.Whole.run_boundary (F := Ideal) m ρ)
  · refine (θ_run Cert.ReferenceIdeal.defs _ _).mono (fun _ h c => ⟨?_, (h c).2⟩)
      (Cert.ReferenceIdeal.ValueP.run (F := Ideal) m' ρ')
    obtain ⟨e0, e1, e2, e3, e4, e5, e6, e7⟩ := hagree c
    rw [(h c).1, Cert.ReferenceIdeal.ReadP.val_main_v90_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
